-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64 .f32) (main_arg6 : FVec F S64x16 .f32) (main_arg7 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S1x16 : Shape := ⟨2, ![1, 16]⟩
abbrev S100000x16 : Shape := ⟨2, ![100000, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 81
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x64, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .f32⟩
  | .hbm, ⟨51, _⟩ => ⟨S1700000x1, .f32⟩
  | .hbm, ⟨52, _⟩ => ⟨S1700000x64, .f32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x1, .f32⟩
  | .hbm, ⟨71, _⟩ => ⟨S1700000x64, .f32⟩
  | .hbm, ⟨72, _⟩ => ⟨S1700000x64, .f32⟩
  | .hbm, ⟨73, _⟩ => ⟨S_, .f32⟩
  | .hbm, ⟨74, _⟩ => ⟨S100000x64, .f32⟩
  | .hbm, ⟨75, _⟩ => ⟨S1700000x1, .i32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S1x16, .f32⟩
  | .hbm, ⟨80, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x16, .f32⟩
  | .local _ .vmem, ⟨23, _⟩ => ⟨S1x16, .f32⟩
  | .local _ .vmem, ⟨24, _⟩ => ⟨S5000x16, .f32⟩
  | .local _ .vmem, ⟨25, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x16.size a ≤ S100000x16.size a
  hwx4_3 : ∀ i : grid4.Coords, EltTy.bits .f32 = 32 ∨ (Rect.block (s := S100000x16) S5000x16.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S5000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x64, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .f32⟩
  | .hbm, ⟨51, _⟩ => ⟨S1700000x1, .f32⟩
  | .hbm, ⟨52, _⟩ => ⟨S1700000x64, .f32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x64, .f32⟩
  | .hbm, ⟨74, _⟩ => ⟨S1700000x1, .f32⟩
  | .hbm, ⟨75, _⟩ => ⟨S1700000x64, .f32⟩
  | .hbm, ⟨76, _⟩ => ⟨S1700000x64, .f32⟩
  | .hbm, ⟨77, _⟩ => ⟨S_, .f32⟩
  | .hbm, ⟨78, _⟩ => ⟨S100000x64, .f32⟩
  | .hbm, ⟨79, _⟩ => ⟨S1700000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x16, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x16, .f32⟩
  | .hbm, ⟨98, _⟩ => ⟨S100000x16, .f32⟩
  | .hbm, ⟨99, _⟩ => ⟨S100000x16, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x16, .f32⟩
  | .hbm, ⟨105, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v67 : Ref sig .tc := ⟨.hbm, 105, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KRun.lean ====
/-
  The kernel program's run with its two results named.

  The program is five row-blocked kernels among stretches of host operations. Its launch from any memory ends with
  every buffer outside the kernels' scratch at the contents the last boundary leaves (`W9`: the launch memory folded
  through the host stretches and, per kernel, the write-backs of its blocks). Here that end state is read at the two
  result buffers as well as at the arguments; the following modules say what `W9` holds there.
-/
import proofs.«107051_j3899830305164_1_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the class log-probabilities'
    buffer and the hidden features' buffer at the last boundary's contents and the arguments as launched. -/
theorem run_at : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_v58) = W9 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       h c _ (mem_uc main_v58 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.KVal

end
-- ==== Proof.Spec.lean ====
/-
  The graph network both programs compute, written once as whole-array operations.

  Nodes n = 100000, edges 1600000 plus one self loop per node (1700000 edge rows), features 64, classes 16.
  With src / dst the edge endpoints (self loops appended), deg the number of edge rows arriving at a node,
  norm_e = deg(src_e)^(-1/2) * deg(dst_e)^(-1/2):

    agg h   = the array whose row i is the sum over edge rows e with dst_e = i of norm_e * h[src_e]
    layer   = relu (agg (x W) + b)        (stated over given src, dst, norm: `aggWith`, `layerWith`)
    hidden  = layer W2 b2 (layer W1 b1 x)
    logp    = log_softmax (hidden W3 + b3), row by row.

  Every operation here is the host operation the reference applies, so the reference's two results are
  `logp` and `hidden` of its argument arrays by unfolding. The kernel computes the three dense stages
  (the matrix products, bias + relu, and the classifier head) block by block over rows; that each such
  stage leaves the same whole array is proved in the modules about the stages.
-/
import proofs.«107051_j3899830305164_1_alg».proof.ReferenceIdeal

noncomputable section

namespace Cert.GCN

open Idealize.ShloMosaic Cert.ReferenceIdeal Cert.ReferenceIdeal.Facts₀ Cert.ReferenceIdeal.Facts

variable {F : FTy → Type} [FloatOps F] [Cert.ReferenceIdeal.Facts]

/-- Row `r` (0 = sources, 1 = destinations) of the edge list, as a vector of 1600000 node numbers. -/
def edgeRow0 (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
def edgeRow1 (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The sources of the 1700000 edge rows: the edge list's, then one self loop per node. -/
def src (e : (⟨S2x1600000, .i32⟩ : BufTy).Contents (Elt F)) : (⟨S1700000, .i32⟩ : BufTy).Contents (Elt F) :=
  concatenate S1700000 0 [⟨S1600000, edgeRow0 (F := F) e⟩, ⟨S100000, (iotaInDim S100000 32 0)⟩] concatenates_S1600000_S100000_S1700000_d0
/-- The destinations of the 1700000 edge rows. -/
def dst (e : (⟨S2x1600000, .i32⟩ : BufTy).Contents (Elt F)) : (⟨S1700000, .i32⟩ : BufTy).Contents (Elt F) :=
  concatenate S1700000 0 [⟨S1600000, edgeRow1 (F := F) e⟩, ⟨S100000, (iotaInDim S100000 32 0)⟩] concatenates_S1600000_S100000_S1700000_d0

/-- A node number read as an index: a negative one counts from the end. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- deg^(-1/2), per node: deg counts the edge rows arriving at the node. -/
def dis (e : (⟨S2x1600000, .i32⟩ : BufTy).Contents (Elt F)) : (⟨S100000, .f32⟩ : BufTy).Contents (Elt F) :=
  Host.rsqrt (Host.scatterAdd scatter_S100000_S1700000x1_S1700000_n_0_0_1
    (broadcastInDim S100000 ![] bcast_S_S100000 (constant S_ .f32 0x00000000#32))
    (broadcastInDim S1700000x1 ![0] bcast_S1700000_S1700000x1_0 (dst (F := F) e))
    (broadcastInDim S1700000 ![] bcast_S_S1700000 (constant S_ .f32 0x3F800000#32)))

/-- The weight of each edge row: deg(src)^(-1/2) * deg(dst)^(-1/2). -/
def norm (e : (⟨S2x1600000, .i32⟩ : BufTy).Contents (Elt F)) : (⟨S1700000, .f32⟩ : BufTy).Contents (Elt F) :=
  mulf (Host.gather gather_S100000_S1700000x1_S1700000_n_0_n_n_0_1_1 (dis e)
         (broadcastInDim S1700000x1 ![0] bcast_S1700000_S1700000x1_0 (wrap (F := F) (src (F := F) e))))
       (Host.gather gather_S100000_S1700000x1_S1700000_n_0_n_n_0_1_1 (dis e)
         (broadcastInDim S1700000x1 ![0] bcast_S1700000_S1700000x1_0 (wrap (F := F) (dst (F := F) e))))

/-- Weighted aggregation over incoming edge rows, given the rows' sources `s`, destinations `d` and weights `n`:
    row i of the result is the sum of n_e * h[s_e] over the edge rows e with d_e = i. -/
def aggWith (s d : (⟨S1700000, .i32⟩ : BufTy).Contents (Elt F)) (n : (⟨S1700000, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (Host.gather gather_S100000x64_S1700000x1_S1700000x64_1_0_n_n_0_1_164 h
            (broadcastInDim S1700000x1 ![0] bcast_S1700000_S1700000x1_0 (wrap (F := F) s)))
          (broadcastInDim S1700000x64 ![0, 1] bcast_S1700000x1_S1700000x64_0_1
            (broadcastInDim S1700000x1 ![0] bcast_S1700000_S1700000x1_0 n)))

/-- The dense transform x W of all node rows. -/
def lin (x : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none x w

/-- relu (a + b) with the bias given as one row [1, 64]. -/
def biasReluRow (a : (⟨S100000x64, .f32⟩ : BufTy).Contents (Elt F)) (b : (⟨S1x64, .f32⟩ : BufTy).Contents (Elt F)) :
    (⟨S100000x64, .f32⟩ : BufTy).Contents (Elt F) :=
  maximumf (addf a (broadcastInDim S100000x64 ![0, 1] bcast_S1x64_S100000x64_0_1 b))
    (broadcastInDim S100000x64 ![] bcast_S_S100000x64 (constant S_ .f32 0x00000000#32))

/-- relu (a + b), the bias a vector of 64. -/
def biasRelu (a : (⟨S100000x64, .f32⟩ : BufTy).Contents (Elt F)) (b : (⟨S64, .f32⟩ : BufTy).Contents (Elt F)) :
    (⟨S100000x64, .f32⟩ : BufTy).Contents (Elt F) :=
  biasReluRow a (broadcastInDim S1x64 ![1] bcast_S64_S1x64_1 b)

/-- Row-wise log-softmax of z: (z - max z) - log (sum (exp (z - max z))). -/
def logSoftmax (z : (⟨S100000x16, .f32⟩ : BufTy).Contents (Elt F)) : (⟨S100000x16, .f32⟩ : BufTy).Contents (Elt F) :=
  let zc : (⟨S100000x16, .f32⟩ : BufTy).Contents (Elt F) :=
    subf z (broadcastInDim S100000x16 ![0, 1] bcast_S100000x1_S100000x16_0_1
      (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x16_S100000_d1 h_S_))))
  subf zc (broadcastInDim S100000x16 ![0, 1] bcast_S100000x1_S100000x16_0_1
    (Host.log (broadcastInDim S100000x1 ![0] bcast_S100000_S100000x1_0
      (Host.reduceAdd (Host.exp zc) (constant S_ .f32 0x00000000#32) reducesTo_S100000x16_S100000_d1 h_S_))))

/-- The classifier head with the bias given as one row [1, 16]: log_softmax (h W3 + b3). -/
def headRow (h : (⟨S100000x64, .f32⟩ : BufTy).Contents (Elt F)) (w : (⟨S64x16, .f32⟩ : BufTy).Contents (Elt F))
    (b : (⟨S1x16, .f32⟩ : BufTy).Contents (Elt F)) : (⟨S100000x16, .f32⟩ : BufTy).Contents (Elt F) :=
  logSoftmax (addf (Host.dotGeneral dot_S100000x64_S64x16_S100000x16_1_0_0_1_n_n none h w)
    (broadcastInDim S100000x16 ![0, 1] bcast_S1x16_S100000x16_0_1 b))

/-- The classifier head, the bias a vector of 16. -/
def head (h : (⟨S100000x64, .f32⟩ : BufTy).Contents (Elt F)) (w : (⟨S64x16, .f32⟩ : BufTy).Contents (Elt F))
    (b : (⟨S16, .f32⟩ : BufTy).Contents (Elt F)) : (⟨S100000x16, .f32⟩ : BufTy).Contents (Elt F) :=
  headRow h w (broadcastInDim S1x16 ![1] bcast_S16_S1x16_1 b)

/-- One graph-convolution layer over given edge rows: relu (agg (x W) + b). -/
def layerWith (s d : (⟨S1700000, .i32⟩ : BufTy).Contents (Elt F)) (n : (⟨S1700000, .f32⟩ : BufTy).Contents (Elt F))
    (x : (⟨S100000x64, .f32⟩ : BufTy).Contents (Elt F))
    (w : (⟨S64x64, .f32⟩ : BufTy).Contents (Elt F)) (b : (⟨S64, .f32⟩ : BufTy).Contents (Elt F)) :
    (⟨S100000x64, .f32⟩ : BufTy).Contents (Elt F) :=
  biasRelu (aggWith s d n (lin x w)) b

/-- The second result: the hidden features after two layers over the edge list's rows. -/
def hidden (x : (⟨S100000x64, .f32⟩ : BufTy).Contents (Elt F)) (e : (⟨S2x1600000, .i32⟩ : BufTy).Contents (Elt F))
    (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) :
    (⟨S100000x64, .f32⟩ : BufTy).Contents (Elt F) :=
  layerWith (src (F := F) e) (dst (F := F) e) (norm e) (layerWith (src (F := F) e) (dst (F := F) e) (norm e) x w1 b1) w2 b2

/-- The first result: the class log-probabilities. -/
def logp (x : (⟨S100000x64, .f32⟩ : BufTy).Contents (Elt F)) (e : (⟨S2x1600000, .i32⟩ : BufTy).Contents (Elt F))
    (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (w3 : (⟨S64x16, .f32⟩ : BufTy).Contents (Elt F)) (b3 : (⟨S16, .f32⟩ : BufTy).Contents (Elt F)) :
    (⟨S100000x16, .f32⟩ : BufTy).Contents (Elt F) :=
  head (hidden x e w1 b1 w2 b2) w3 b3

end Cert.GCN

end
-- ==== Proof.RegLin.lean ====
/-
  The two dense transforms x W of the network, computed one block of 5000 rows at a time, are the whole-array products.

  Rows are cut into 20 blocks of 5000. At block t the stage reads rows 5000 t … 5000 t + 4999 of its first operand and
  the whole [64, 64] weight, and writes the product of the two, accumulated from the zero matrix, to the same rows of
  its result. With exact arithmetic, entry (p, q) of that block product is the sum over k < 64 of x(5000 t + p, k) * w(k, q)
  (rounding the operands to a narrower format changes nothing, and 0 + s = s), and entry (r, q) of the whole-array
  contraction is the sum over k < 64 of x(r, k) * w(k, q). The two sums agree term by term at r = 5000 t + p, so block t
  of the result is block t of the whole product; the twenty blocks cover every row (row r lies in block r / 5000), so
  the result array is the whole product. The second transform differs only in its operands and in a reshaping of the
  row block to its own shape, which is the identity.
-/
import proofs.«107051_j3899830305164_1_alg».proof.Proof.Spec
import proofs.«107051_j3899830305164_1_alg».proof.Proof.Gen.KernelIdeal.Frame
import proofs.«107051_j3899830305164_1_alg».proof.Proof.Gen.ReferenceIdeal
import Idealize.ShloMosaic.Lib.Pipeline.Value
import Idealize.ShloMosaic.Lib.ValueIdx
import Idealize.ShloMosaic.PureOps.Ideal.Laws

noncomputable section
namespace Cert.KernelIdeal.KVal
open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## One block's product at an entry -/

/-- The operand indices of the block product at result index j and contraction index k: the left operand is read at
    (j 0, k), the right at (k, j 1). -/
theorem linBlkDot_lhs0 (j : S5000x64.Idx) (k : dot_S5000x64_S64x64_S5000x64_1_0_0_1_n_n.contr.Idx) :
    (dot_S5000x64_S64x64_S5000x64_1_0_0_1_n_n.lhsIdx j k 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem linBlkDot_lhs1 (j : S5000x64.Idx) (k : dot_S5000x64_S64x64_S5000x64_1_0_0_1_n_n.contr.Idx) :
    (dot_S5000x64_S64x64_S5000x64_1_0_0_1_n_n.lhsIdx j k 1).val = (k ⟨0, by decide⟩).val :=
  dot_S5000x64_S64x64_S5000x64_1_0_0_1_n_n.lhsIdx_val_of_single rfl j k
theorem linBlkDot_rhs0 (j : S5000x64.Idx) (k : dot_S5000x64_S64x64_S5000x64_1_0_0_1_n_n.contr.Idx) :
    (dot_S5000x64_S64x64_S5000x64_1_0_0_1_n_n.rhsIdx j k 0).val = (k ⟨0, by decide⟩).val :=
  dot_S5000x64_S64x64_S5000x64_1_0_0_1_n_n.rhsIdx_val_of_single rfl j k
theorem linBlkDot_rhs1 (j : S5000x64.Idx) (k : dot_S5000x64_S64x64_S5000x64_1_0_0_1_n_n.contr.Idx) :
    (dot_S5000x64_S64x64_S5000x64_1_0_0_1_n_n.rhsIdx j k 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of a row block's product with the weight, accumulated from zero: the sum over k of x(p, k) * w(k, q). -/
theorem linBlkMatmul_apply (x : FVec Ideal S5000x64 .bf16) (w : FVec Ideal S64x64 .bf16) (p : Fin 5000) (q : Fin 64) :
    matmul dot_S5000x64_S64x64_S5000x64_1_0_0_1_n_n none x w (constant (F := Ideal) S5000x64 .f32 0x00000000#32) (ix2 p q)
      = ∑ k : Fin 64, x (ix2 p k) * w (ix2 k q) := by
  refine (Ideal.matmul_constant_zero_apply dot_S5000x64_S64x64_S5000x64_1_0_0_1_n_n none x w (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact linBlkDot_lhs0 _ _
    | ⟨1, _⟩ => exact (linBlkDot_lhs1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (linBlkDot_rhs0 _ _).trans hk
    | ⟨1, _⟩ => exact linBlkDot_rhs1 _ _)
  rw [el, er]

/-- The first transform's block: the operands pass through a change of format, the identity on exact values. -/
theorem lin0_pay_apply (x : Vec Ideal S5000x64 .f32) (w : Vec Ideal S64x64 .f32) (p : Fin 5000) (q : Fin 64) :
    k0_pay1 (F := Ideal) x w (ix2 p q) = ∑ k : Fin 64, x (ix2 p k) * w (ix2 k q) := by
  unfold k0_pay1
  exact linBlkMatmul_apply _ _ p q

/-- The second transform's block: the row block is first reshaped to its own shape, which changes nothing. -/
theorem lin2_pay_apply (x : Vec Ideal S5000x64 .f32) (w : Vec Ideal S64x64 .f32) (p : Fin 5000) (q : Fin 64) :
    k2_pay1 (F := Ideal) x w (ix2 p q) = ∑ k : Fin 64, x (ix2 p k) * w (ix2 k q) := by
  unfold k2_pay1
  refine (linBlkMatmul_apply _ _ p q).trans ?_
  refine Finset.sum_congr rfl fun k _ => ?_
  rw [shapeCast_self]
  rfl

/-! ## The whole product at an entry -/

/-- The operand indices of the whole-array contraction: the left operand is read at (j 0, k), the right at (k, j 1). -/
theorem linArrDot_lhs0 (j : Cert.ReferenceIdeal.S100000x64.Idx) (k : Cert.ReferenceIdeal.dot_S100000x64_S64x64_S100000x64_1_0_0_1_n_n.contr.Idx) :
    (Cert.ReferenceIdeal.dot_S100000x64_S64x64_S100000x64_1_0_0_1_n_n.lhsIdx j k 0).val = (j 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem linArrDot_lhs1 (j : Cert.ReferenceIdeal.S100000x64.Idx) (k : Cert.ReferenceIdeal.dot_S100000x64_S64x64_S100000x64_1_0_0_1_n_n.contr.Idx) :
    (Cert.ReferenceIdeal.dot_S100000x64_S64x64_S100000x64_1_0_0_1_n_n.lhsIdx j k 1).val = (k ⟨0, by decide⟩).val :=
  Cert.ReferenceIdeal.dot_S100000x64_S64x64_S100000x64_1_0_0_1_n_n.lhsIdx_val_of_single rfl j k
theorem linArrDot_rhs0 (j : Cert.ReferenceIdeal.S100000x64.Idx) (k : Cert.ReferenceIdeal.dot_S100000x64_S64x64_S100000x64_1_0_0_1_n_n.contr.Idx) :
    (Cert.ReferenceIdeal.dot_S100000x64_S64x64_S100000x64_1_0_0_1_n_n.rhsIdx j k 0).val = (k ⟨0, by decide⟩).val :=
  Cert.ReferenceIdeal.dot_S100000x64_S64x64_S100000x64_1_0_0_1_n_n.rhsIdx_val_of_single rfl j k
theorem linArrDot_rhs1 (j : Cert.ReferenceIdeal.S100000x64.Idx) (k : Cert.ReferenceIdeal.dot_S100000x64_S64x64_S100000x64_1_0_0_1_n_n.contr.Idx) :
    (Cert.ReferenceIdeal.dot_S100000x64_S64x64_S100000x64_1_0_0_1_n_n.rhsIdx j k 1).val = (j 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- Entry (r, q) of x W over all 100000 rows: the sum over k of x(r, k) * w(k, q). -/
theorem linArr_apply (x : (⟨Cert.ReferenceIdeal.S100000x64, .f32⟩ : BufTy).Contents (Elt Ideal)) (w : (⟨Cert.ReferenceIdeal.S64x64, .f32⟩ : BufTy).Contents (Elt Ideal))
    (r : Fin 100000) (q : Fin 64) :
    Cert.GCN.lin (F := Ideal) x w (ix2 r q) = ∑ k : Fin 64, x (ix2 r k) * w (ix2 k q) := by
  unfold Cert.GCN.lin
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((contrEquiv1 Cert.ReferenceIdeal.dot_S100000x64_S64x64_S100000x64_1_0_0_1_n_n 64 rfl rfl).symm k) = ix2 r k := funext fun a => Fin.ext (by
    match a with
    | ⟨0, _⟩ => exact linArrDot_lhs0 _ _
    | ⟨1, _⟩ => exact (linArrDot_lhs1 _ _).trans hk)
  have er : Cert.ReferenceIdeal.dot_S100000x64_S64x64_S100000x64_1_0_0_1_n_n.rhsIdx (ix2 r q) ((contrEquiv1 Cert.ReferenceIdeal.dot_S100000x64_S64x64_S100000x64_1_0_0_1_n_n 64 rfl rfl).symm k) = ix2 k q := funext fun a => Fin.ext (by
    match a with
    | ⟨0, _⟩ => exact (linArrDot_rhs0 _ _).trans hk
    | ⟨1, _⟩ => exact linArrDot_rhs1 _ _)
  rw [el, er]

/-- The zero block offsets, however they are spelt. -/
theorem lin_offsets_zero : (![0, 0] : Fin 2 → Nat) = fun _ => 0 := funext fun a => by fin_cases a <;> rfl

/-! ## The first transform: from the blocks to the array -/

/-- The index maps over the grid: the two row windows sit at block (t, 0), the weight's window at block (0, 0). -/
theorem lin0_blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of row block t of the first operand is entry (5000 t + p, k) of the array. -/
theorem lin0_rows_apply (c : Dev nD) (t : Fin cfg0.N) (p : Fin 5000) (k : Fin 64) (r : Fin 100000) (hr : r.val = t.val * 5000 + p.val) :
    (iblk0 V c 0 t : Vec Ideal S5000x64 .f32) (ix2 p k) = (V c main_arg0 : S100000x64.Idx → Elt Ideal .f32) (ix2 r k) := by
  obtain ⟨e0, e1, -⟩ := lin0_blockIndex t
  unfold iblk0
  rw [View.read_apply]
  show (V c main_arg0 : S100000x64.Idx → Elt Ideal .f32) _ = (V c main_arg0 : S100000x64.Idx → Elt Ideal .f32) _
  refine congrArg (V c main_arg0 : S100000x64.Idx → Elt Ideal .f32) ?_
  funext a
  apply Fin.ext
  match a with
  | ⟨0, _⟩ => show win0_0.index t (0 : Fin 2) * 5000 + 1 * p.val = r.val; omega
  | ⟨1, _⟩ => show win0_0.index t (1 : Fin 2) * 64 + 1 * k.val = k.val; omega

/-- The weight's window is the whole weight at every point. -/
theorem lin0_weight_apply (c : Dev nD) (t : Fin cfg0.N) (k : Fin 64) (q : Fin 64) :
    (iblk0 V c 1 t : Vec Ideal S64x64 .f32) (ix2 k q) = (V c main_arg2 : S64x64.Idx → Elt Ideal .f32) (ix2 k q) := by
  obtain ⟨-, -, e2, e3, -⟩ := lin0_blockIndex t
  unfold iblk0
  rw [View.read_apply]
  show (V c main_arg2 : S64x64.Idx → Elt Ideal .f32) _ = (V c main_arg2 : S64x64.Idx → Elt Ideal .f32) _
  refine congrArg (V c main_arg2 : S64x64.Idx → Elt Ideal .f32) ?_
  funext a
  apply Fin.ext
  match a with
  | ⟨0, _⟩ => show win0_1.index t (0 : Fin 2) * 64 + 1 * k.val = k.val; omega
  | ⟨1, _⟩ => show win0_1.index t (1 : Fin 2) * 64 + 1 * q.val = q.val; omega

/-- What point t writes back is rows 5000 t … 5000 t + 4999 of x W. -/
theorem lin0_flushed (c : Dev nD) (t : Fin cfg0.N) :
    (dat0 (F := Ideal) V c).flushed 2 t = ((cfg0.win 2).blk t).view.read (Elt Ideal) (Cert.GCN.lin (F := Ideal) (V c main_arg0) (V c main_arg2)) := by
  show (cfg0.win 2).cut (grid0.coords t) ((dat0 V c).after 2 t) = _
  rw [after0_2]
  unfold out0_2
  rw [View.canon_unit_zero lin_offsets_zero]
  simp only [View.ld_unit_zero (S := S5000x64) lin_offsets_zero, View.ld_unit_zero (S := S64x64) lin_offsets_zero]
  obtain ⟨-, -, -, -, e4, e5⟩ := lin0_blockIndex t
  have hN : cfg0.N = 20 := N_0
  have ht : t.val < 20 := hN ▸ t.isLt
  funext j
  obtain ⟨p, q, rfl⟩ : ∃ (p : Fin 5000) (q : Fin 64), j = ix2 p q := ⟨j 0, j 1, eq_ix2 j⟩
  have hemb : ((cfg0.win 2).blk t).view.emb (ix2 p q) = (ix2 (⟨t.val * 5000 + p.val, by have := p.isLt; omega⟩ : Fin 100000) q : S100000x64.Idx) := by
    funext a
    apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  refine (lin0_pay_apply _ _ p q).trans ?_
  rw [View.read_apply, hemb]
  refine Eq.trans ?_ (linArr_apply _ _ _ q).symm
  refine Finset.sum_congr rfl fun k _ => ?_
  rw [lin0_rows_apply V c t p k ⟨t.val * 5000 + p.val, by have := p.isLt; omega⟩ rfl, lin0_weight_apply V c t k q]

/-- An index of the array is in point t's block iff each coordinate is in the block's range on its axis. -/
theorem lin0_mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- The twenty row blocks cover the array: row r is in block r / 5000. -/
theorem lin0_cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e4, e5⟩ := lin0_blockIndex t
  have e4' : win0_2.index t (0 : Fin 2) = (i 0).val / 5000 := e4
  refine ⟨t, flush0_2 t, ?_⟩
  rw [lin0_mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the twenty points is the whole product. -/
theorem lin0_final (c : Dev nD) :
    (dat0 (F := Ideal) V c).arrAt 2 cfg0.N = Cert.GCN.lin (F := Ideal) (V c main_arg0) (V c main_arg2) :=
  (dat0 (F := Ideal) V c).arrAt_eq_of_cover 2 _ (fun t _ => lin0_flushed V c t) lin0_cover

/-! ## The second transform: from the blocks to the array -/

/-- The index maps over the grid: the two row windows sit at block (t, 0), the weight's window at block (0, 0). -/
theorem lin2_blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of row block t of the first operand is entry (5000 t + p, k) of the array. -/
theorem lin2_rows_apply (c : Dev nD) (t : Fin cfg2.N) (p : Fin 5000) (k : Fin 64) (r : Fin 100000) (hr : r.val = t.val * 5000 + p.val) :
    (iblk2 V c 0 t : Vec Ideal S5000x64 .f32) (ix2 p k) = (V c main_v42 : S100000x64.Idx → Elt Ideal .f32) (ix2 r k) := by
  obtain ⟨e0, e1, -⟩ := lin2_blockIndex t
  unfold iblk2
  rw [View.read_apply]
  show (V c main_v42 : S100000x64.Idx → Elt Ideal .f32) _ = (V c main_v42 : S100000x64.Idx → Elt Ideal .f32) _
  refine congrArg (V c main_v42 : S100000x64.Idx → Elt Ideal .f32) ?_
  funext a
  apply Fin.ext
  match a with
  | ⟨0, _⟩ => show win2_0.index t (0 : Fin 2) * 5000 + 1 * p.val = r.val; omega
  | ⟨1, _⟩ => show win2_0.index t (1 : Fin 2) * 64 + 1 * k.val = k.val; omega

/-- The weight's window is the whole weight at every point. -/
theorem lin2_weight_apply (c : Dev nD) (t : Fin cfg2.N) (k : Fin 64) (q : Fin 64) :
    (iblk2 V c 1 t : Vec Ideal S64x64 .f32) (ix2 k q) = (V c main_arg4 : S64x64.Idx → Elt Ideal .f32) (ix2 k q) := by
  obtain ⟨-, -, e2, e3, -⟩ := lin2_blockIndex t
  unfold iblk2
  rw [View.read_apply]
  show (V c main_arg4 : S64x64.Idx → Elt Ideal .f32) _ = (V c main_arg4 : S64x64.Idx → Elt Ideal .f32) _
  refine congrArg (V c main_arg4 : S64x64.Idx → Elt Ideal .f32) ?_
  funext a
  apply Fin.ext
  match a with
  | ⟨0, _⟩ => show win2_1.index t (0 : Fin 2) * 64 + 1 * k.val = k.val; omega
  | ⟨1, _⟩ => show win2_1.index t (1 : Fin 2) * 64 + 1 * q.val = q.val; omega

/-- What point t writes back is rows 5000 t … 5000 t + 4999 of x W. -/
theorem lin2_flushed (c : Dev nD) (t : Fin cfg2.N) :
    (dat2 (F := Ideal) V c).flushed 2 t = ((cfg2.win 2).blk t).view.read (Elt Ideal) (Cert.GCN.lin (F := Ideal) (V c main_v42) (V c main_arg4)) := by
  show (cfg2.win 2).cut (grid2.coords t) ((dat2 V c).after 2 t) = _
  rw [after2_2]
  unfold out2_2
  rw [View.canon_unit_zero lin_offsets_zero]
  simp only [View.ld_unit_zero (S := S5000x64) lin_offsets_zero, View.ld_unit_zero (S := S64x64) lin_offsets_zero]
  obtain ⟨-, -, -, -, e4, e5⟩ := lin2_blockIndex t
  have hN : cfg2.N = 20 := N_2
  have ht : t.val < 20 := hN ▸ t.isLt
  funext j
  obtain ⟨p, q, rfl⟩ : ∃ (p : Fin 5000) (q : Fin 64), j = ix2 p q := ⟨j 0, j 1, eq_ix2 j⟩
  have hemb : ((cfg2.win 2).blk t).view.emb (ix2 p q) = (ix2 (⟨t.val * 5000 + p.val, by have := p.isLt; omega⟩ : Fin 100000) q : S100000x64.Idx) := by
    funext a
    apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  refine (lin2_pay_apply _ _ p q).trans ?_
  rw [View.read_apply, hemb]
  refine Eq.trans ?_ (linArr_apply _ _ _ q).symm
  refine Finset.sum_congr rfl fun k _ => ?_
  rw [lin2_rows_apply V c t p k ⟨t.val * 5000 + p.val, by have := p.isLt; omega⟩ rfl, lin2_weight_apply V c t k q]

/-- An index of the array is in point t's block iff each coordinate is in the block's range on its axis. -/
theorem lin2_mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v43).slice (win2_2.rect t)).set ↔ _
  rw [View.set_slice_whole, Rect.mem_set_unit]
  exact Iff.rfl

/-- The twenty row blocks cover the array: row r is in block r / 5000. -/
theorem lin2_cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, e4, e5⟩ := lin2_blockIndex t
  have e4' : win2_2.index t (0 : Fin 2) = (i 0).val / 5000 := e4
  refine ⟨t, flush2_2 t, ?_⟩
  rw [lin2_mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after the twenty points is the whole product. -/
theorem lin2_final (c : Dev nD) :
    (dat2 (F := Ideal) V c).arrAt 2 cfg2.N = Cert.GCN.lin (F := Ideal) (V c main_v42) (V c main_arg4) :=
  (dat2 (F := Ideal) V c).arrAt_eq_of_cover 2 _ (fun t _ => lin2_flushed V c t) lin2_cover

end Cert.KernelIdeal.KVal
end
-- ==== Proof.RegBias.lean ====
import proofs.«107051_j3899830305164_1_alg».proof.Proof.Spec
import proofs.«107051_j3899830305164_1_alg».proof.Proof.Gen.KernelIdeal.Frame
import proofs.«107051_j3899830305164_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.KVal
open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! # The two bias + relu stages: each leaves relu (a + b) of its whole input array

Both stages run the same row-blocked kernel: twenty blocks of 5000 rows, each block computing
max (x(p, q) + b(0, q)) 0 from its rows x and the one bias row b. Row p of block t is row t * 5000 + p of the
array, and the twenty blocks cover all 100000 rows, so the array ends as the whole-array max (a + b) 0. -/

/-- The whole-array bias + relu at row r, lane q: max (a(r,q) + b(0,q)) 0. -/
theorem biasReluRow_apply (a : (⟨S100000x64, .f32⟩ : BufTy).Contents (Elt Ideal)) (b : (⟨S1x64, .f32⟩ : BufTy).Contents (Elt Ideal))
    (r : Fin 100000) (q : Fin 64) :
    Cert.GCN.biasReluRow (F := Ideal) a b (ix2 r q)
      = max (a (ix2 r q) + b (ix2 (0 : Fin 1) q)) (Ideal.ofBits .f32 0x00000000#32) := by
  unfold Cert.GCN.biasReluRow
  rw [maximumf_apply, addf_apply]
  have hb : broadcastInDim S100000x64 ![0, 1] Cert.ReferenceIdeal.Facts₀.bcast_S1x64_S100000x64_0_1 b (ix2 r q) = b (ix2 (0 : Fin 1) q) := by
    refine broadcastInDim_apply _ _ b (ix2 r q) (ix2 (0 : Fin 1) q) fun ax => ?_
    match ax with
    | ⟨0, _⟩ => rfl
    | ⟨1, _⟩ => rfl
  have hz : broadcastInDim S100000x64 ![] Cert.ReferenceIdeal.Facts₀.bcast_S_S100000x64 (constant (F := Ideal) S_ .f32 0x00000000#32) (ix2 r q) = Ideal.ofBits .f32 0x00000000#32 := by
    refine (broadcastInDim_apply _ _ _ (ix2 r q) ix0 fun ax => ax.elim0).trans ?_
    rfl
  rw [hb, hz]

/-- The offset (0, 0) of a whole-buffer access. -/
theorem zero_off : (![0, 0] : Fin 2 → Nat) = fun _ => 0 := funext fun a => by fin_cases a <;> rfl

/-! ## The first bias + relu stage -/

/-- A block's result at row p, lane q: max (x(p,q) + b(0,q)) 0. -/
theorem biasRelu1_pay_apply (x0 : Vec Ideal S5000x64 .f32) (x1 : Vec Ideal S1x64 .f32) (p : Fin 5000) (q : Fin 64) :
    k1_pay1 (F := Ideal) x0 x1 (ix2 p q)
      = max (x0 (ix2 p q) + x1 (ix2 (0 : Fin 1) q)) (Ideal.ofBits .f32 0x00000000#32) := by
  unfold k1_pay1
  rw [maximumf_apply, addf_apply, broadcast_apply, shapeCast_self, shapeCast_self, broadcastTo_1b_ab_apply]
  rfl

/-- The three windows' block indices at grid point t: the row windows sit at block t of the rows, lane block 0;
    the bias row is always block (0, 0). -/
theorem br1_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the whole-array bias + relu of the stage's input arrays. -/
theorem br1_flushed (c : Dev nD) (t : Fin cfg1.N) :
    (dat1 (F := Ideal) V c).flushed 2 t
      = ((cfg1.win 2).blk t).view.read (Elt Ideal) (Cert.GCN.biasReluRow (F := Ideal) (V c main_v40) (V c main_v41)) := by
  show (cfg1.win 2).cut (grid1.coords t) ((dat1 V c).after 2 t) = _
  rw [after1_2]
  unfold out1_2
  rw [View.canon_unit_zero zero_off]
  simp only [View.ld_unit_zero (S := S5000x64) zero_off, View.ld_unit_zero (S := S1x64) zero_off]
  obtain ⟨e00, e01, e10, e11, e20, e21⟩ := br1_index t
  have ht : t.val < 20 := t.isLt
  have key : ∀ (p : Fin 5000) (q : Fin 64),
      k1_pay1 (F := Ideal) (iblk1 V c 0 t) (iblk1 V c 1 t) (ix2 p q)
        = Cert.GCN.biasReluRow (F := Ideal) (V c main_v40) (V c main_v41) (((cfg1.win 2).blk t).view.emb (ix2 p q)) := by
    intro p q
    have hp : p.val < 5000 := p.isLt
    have hrow : t.val * 5000 + p.val < 100000 := by omega
    -- row p of block t is row t * 5000 + p of the array, in the input and in the output alike
    have h2 : ((cfg1.win 2).blk t).view.emb (ix2 p q) = ix2 (⟨t.val * 5000 + p.val, hrow⟩ : Fin 100000) q := by
      funext a; apply Fin.ext
      match a with
      | ⟨0, _⟩ => show win1_2.index t (0 : Fin 2) * 5000 + 1 * p.val = t.val * 5000 + p.val; omega
      | ⟨1, _⟩ => show win1_2.index t (1 : Fin 2) * 64 + 1 * q.val = q.val; omega
    have h0 : iblk1 V c 0 t (ix2 p q) = V c main_v40 (ix2 (⟨t.val * 5000 + p.val, hrow⟩ : Fin 100000) q) := by
      show V c main_v40 (((cfg1.win 0).blk t).view.emb (ix2 p q)) = _
      refine congrArg _ (funext fun a => Fin.ext ?_)
      match a with
      | ⟨0, _⟩ => show win1_0.index t (0 : Fin 2) * 5000 + 1 * p.val = t.val * 5000 + p.val; omega
      | ⟨1, _⟩ => show win1_0.index t (1 : Fin 2) * 64 + 1 * q.val = q.val; omega
    -- the bias window is the whole one-row array
    have h1 : iblk1 V c 1 t (ix2 (0 : Fin 1) q) = V c main_v41 (ix2 (0 : Fin 1) q) := by
      show V c main_v41 (((cfg1.win 1).blk t).view.emb (ix2 (0 : Fin 1) q)) = _
      refine congrArg _ (funext fun a => Fin.ext ?_)
      match a with
      | ⟨0, _⟩ => show win1_1.index t (0 : Fin 2) * 1 + 1 * 0 = 0; omega
      | ⟨1, _⟩ => show win1_1.index t (1 : Fin 2) * 64 + 1 * q.val = q.val; omega
    refine (biasRelu1_pay_apply _ _ p q).trans ?_
    refine Eq.trans ?_ (congrArg _ h2.symm)
    refine Eq.trans ?_ (biasReluRow_apply _ _ _ q).symm
    rw [h0, h1]
  funext j
  exact (congrArg _ (eq_ix2 j)).trans ((key (j 0) (j 1)).trans (congrArg _ (congrArg _ (eq_ix2 j).symm)))

/-- An index of the array is in grid point t's output block iff each coordinate is in the block's range on its axis. -/
theorem br1_mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v42).slice (win1_2.rect t)).set ↔ _
  rw [View.set_slice_whole, Rect.mem_set_unit]
  exact Iff.rfl

/-- The twenty row blocks cover the array: row r lies in block r / 5000. -/
theorem br1_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have htv : t.val = (i 0).val / 5000 := rfl
  obtain ⟨-, -, -, -, e20, e21⟩ := br1_index t
  refine ⟨t, flush1_2 t, ?_⟩
  rw [br1_mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the stage the output array is the whole-array bias + relu of its two input arrays. -/
theorem br1_final (c : Dev nD) :
    (dat1 (F := Ideal) V c).arrAt 2 cfg1.N = Cert.GCN.biasReluRow (F := Ideal) (V c main_v40) (V c main_v41) :=
  (dat1 (F := Ideal) V c).arrAt_eq_of_cover 2 _ (fun t _ => br1_flushed V c t) br1_cover

/-! ## The second bias + relu stage -/

/-- A block's result at row p, lane q: max (x(p,q) + b(0,q)) 0. -/
theorem biasRelu3_pay_apply (x0 : Vec Ideal S5000x64 .f32) (x1 : Vec Ideal S1x64 .f32) (p : Fin 5000) (q : Fin 64) :
    k3_pay1 (F := Ideal) x0 x1 (ix2 p q)
      = max (x0 (ix2 p q) + x1 (ix2 (0 : Fin 1) q)) (Ideal.ofBits .f32 0x00000000#32) := by
  unfold k3_pay1
  rw [maximumf_apply, addf_apply, broadcast_apply, shapeCast_self, shapeCast_self, broadcastTo_1b_ab_apply]
  rfl

/-- The three windows' block indices at grid point t: the row windows sit at block t of the rows, lane block 0;
    the bias row is always block (0, 0). -/
theorem br3_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the whole-array bias + relu of the stage's input arrays. -/
theorem br3_flushed (c : Dev nD) (t : Fin cfg3.N) :
    (dat3 (F := Ideal) V c).flushed 2 t
      = ((cfg3.win 2).blk t).view.read (Elt Ideal) (Cert.GCN.biasReluRow (F := Ideal) (V c main_v56) (V c main_v57)) := by
  show (cfg3.win 2).cut (grid3.coords t) ((dat3 V c).after 2 t) = _
  rw [after3_2]
  unfold out3_2
  rw [View.canon_unit_zero zero_off]
  simp only [View.ld_unit_zero (S := S5000x64) zero_off, View.ld_unit_zero (S := S1x64) zero_off]
  obtain ⟨e00, e01, e10, e11, e20, e21⟩ := br3_index t
  have ht : t.val < 20 := t.isLt
  have key : ∀ (p : Fin 5000) (q : Fin 64),
      k3_pay1 (F := Ideal) (iblk3 V c 0 t) (iblk3 V c 1 t) (ix2 p q)
        = Cert.GCN.biasReluRow (F := Ideal) (V c main_v56) (V c main_v57) (((cfg3.win 2).blk t).view.emb (ix2 p q)) := by
    intro p q
    have hp : p.val < 5000 := p.isLt
    have hrow : t.val * 5000 + p.val < 100000 := by omega
    -- row p of block t is row t * 5000 + p of the array, in the input and in the output alike
    have h2 : ((cfg3.win 2).blk t).view.emb (ix2 p q) = ix2 (⟨t.val * 5000 + p.val, hrow⟩ : Fin 100000) q := by
      funext a; apply Fin.ext
      match a with
      | ⟨0, _⟩ => show win3_2.index t (0 : Fin 2) * 5000 + 1 * p.val = t.val * 5000 + p.val; omega
      | ⟨1, _⟩ => show win3_2.index t (1 : Fin 2) * 64 + 1 * q.val = q.val; omega
    have h0 : iblk3 V c 0 t (ix2 p q) = V c main_v56 (ix2 (⟨t.val * 5000 + p.val, hrow⟩ : Fin 100000) q) := by
      show V c main_v56 (((cfg3.win 0).blk t).view.emb (ix2 p q)) = _
      refine congrArg _ (funext fun a => Fin.ext ?_)
      match a with
      | ⟨0, _⟩ => show win3_0.index t (0 : Fin 2) * 5000 + 1 * p.val = t.val * 5000 + p.val; omega
      | ⟨1, _⟩ => show win3_0.index t (1 : Fin 2) * 64 + 1 * q.val = q.val; omega
    -- the bias window is the whole one-row array
    have h1 : iblk3 V c 1 t (ix2 (0 : Fin 1) q) = V c main_v57 (ix2 (0 : Fin 1) q) := by
      show V c main_v57 (((cfg3.win 1).blk t).view.emb (ix2 (0 : Fin 1) q)) = _
      refine congrArg _ (funext fun a => Fin.ext ?_)
      match a with
      | ⟨0, _⟩ => show win3_1.index t (0 : Fin 2) * 1 + 1 * 0 = 0; omega
      | ⟨1, _⟩ => show win3_1.index t (1 : Fin 2) * 64 + 1 * q.val = q.val; omega
    refine (biasRelu3_pay_apply _ _ p q).trans ?_
    refine Eq.trans ?_ (congrArg _ h2.symm)
    refine Eq.trans ?_ (biasReluRow_apply _ _ _ q).symm
    rw [h0, h1]
  funext j
  exact (congrArg _ (eq_ix2 j)).trans ((key (j 0) (j 1)).trans (congrArg _ (congrArg _ (eq_ix2 j).symm)))

/-- An index of the array is in grid point t's output block iff each coordinate is in the block's range on its axis. -/
theorem br3_mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v58).slice (win3_2.rect t)).set ↔ _
  rw [View.set_slice_whole, Rect.mem_set_unit]
  exact Iff.rfl

/-- The twenty row blocks cover the array: row r lies in block r / 5000. -/
theorem br3_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  have htv : t.val = (i 0).val / 5000 := rfl
  obtain ⟨-, -, -, -, e20, e21⟩ := br3_index t
  refine ⟨t, flush3_2 t, ?_⟩
  rw [br3_mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the stage the output array is the whole-array bias + relu of its two input arrays. -/
theorem br3_final (c : Dev nD) :
    (dat3 (F := Ideal) V c).arrAt 2 cfg3.N = Cert.GCN.biasReluRow (F := Ideal) (V c main_v56) (V c main_v57) :=
  (dat3 (F := Ideal) V c).arrAt_eq_of_cover 2 _ (fun t _ => br3_flushed V c t) br3_cover

end Cert.KernelIdeal.KVal
end
-- ==== Proof.LibIdeal.lean ====
/-
  Facts about float operations read at the exact instance, where a float is an extended real, and the one function both
  programs' last stage computes on a row.

  * A matrix product accumulated into the zero matrix and the host's contraction over the same dimension numbers are
    one function: each entry is the sum over the contracted index of the operands' products, and `0 + s = s` on the
    extended reals whatever `s` is.
  * The running maximum of a family started from `z` is at least `z`, so taking the maximum with `z` once more changes
    nothing.
  * `lsmRow z y`: the log-softmax of a row `y` as it is computed here — the row shifted by its maximum (the fold of
    `max` started from `z`), minus the logarithm of the sum of the exponentials of the shifted row.
-/
import Idealize.ShloMosaic.PureOps.Ideal.Laws
import Idealize.ShloMosaic.Lib.ValueIdx

noncomputable section

namespace Cert.LibIdeal

open Idealize.ShloMosaic

/-- At the exact instance a matrix product into the zero accumulator is the host's contraction over the same dimension
    numbers: both are, entry by entry, the sum over the contracted index of the operands' products. -/
theorem matmul_zero_eq_dotGeneral {sl sr so : Shape} {φ₁ φ₂ : FTy} (d : DotDims sl sr so) (prec : Option ContractPrecision)
    (sched : HostSchedule) (lhs : FVec Ideal sl φ₁) (rhs : FVec Ideal sr φ₂) :
    FloatOps.matmul d prec lhs rhs (constant so .f32 0x00000000#32) = FloatOps.dotGeneral d prec sched lhs rhs :=
  funext fun j => by rw [Ideal.matmul_constant_zero_apply, Ideal.dotGeneral_apply]

/-- A fold of `max` started from `z` is at least `z`: one more `max` with `z` is absorbed. -/
theorem max_fold_max_self {ι : Type} (s : Finset ι) (z : EReal) (f : ι → EReal) :
    max z (s.fold max z f) = s.fold max z f := by
  apply max_eq_right
  rw [Finset.le_fold_max]
  exact Or.inl le_rfl

/-- The log-softmax of the row `y`, its maximum taken as the fold of `max` started from `z`: at `q`,
    `(y q - M) - log (∑ q', exp (y q' - M))` with `M` that maximum. -/
def lsmRow {n : Nat} (z : EReal) (y : Fin n → EReal) (q : Fin n) : EReal :=
  (y q - Finset.univ.fold max z y) - Ideal.log (∑ q' : Fin n, Ideal.exp (y q' - Finset.univ.fold max z y))

/-- `lsmRow` depends on the row only through its entries. -/
theorem lsmRow_congr {n : Nat} (z : EReal) {y y' : Fin n → EReal} (h : ∀ q, y q = y' q) (q : Fin n) :
    lsmRow z y q = lsmRow z y' q := by
  rw [show y = y' from funext h]

end Cert.LibIdeal

end
-- ==== Proof.RegHead.lean ====
/-
  The classifier head, computed block by block, leaves the whole-array head.

  The last region runs over 20 points. Point t holds rows 5000 t … 5000 t + 4999 of the hidden features [100000, 64], all
  of the weights [64, 16] and the bias row [1, 16], and writes the same rows of the result [100000, 16]. On its block it
  forms z = x W + b (the product taken into the zero matrix, the bias row repeated over the rows), takes each row's
  maximum m starting from minus infinity, shifts every row by its maximum, and subtracts from each shifted row the
  logarithm of the sum of its exponentials. The reference does the same on all 100000 rows at once with the host's
  operations; it takes one more maximum of m with minus infinity, which changes nothing.

  Both are read entry by entry as ONE function of a row of scores (`Cert.LibIdeal.lsmRow`): at (r, q) the result is the
  log-softmax, at q, of the row q' ↦ Σ_k h(r, k) W(k, q') + b(0, q') (`headAffine`).
  * `headPay_apply`: the block's value at (p, q) is that function of the block's row p.
  * `headRow_apply`: the reference's value at (r, q) is that function of row r.
  * `headFlushed_eq`: row p of point t's block is row 5000 t + p of the array, and the weights and the bias row are read
    whole, so what point t writes back is block t of the reference's head.
  * `headCover`: row r lies in the block of point r / 5000, so the 20 blocks cover the array, and the array ends holding
    the reference's head (`head4_final`).
  The column forms of the layout operations used on the way ([a] → [a, 1], [a, 1] → [a, b], and the host's broadcasts)
  are read at an index in the first section.
-/
import proofs.«107051_j3899830305164_1_alg».proof.Proof.Spec
import proofs.«107051_j3899830305164_1_alg».proof.Proof.LibIdeal
import proofs.«107051_j3899830305164_1_alg».proof.Proof.Gen.KernelIdeal.Frame
import proofs.«107051_j3899830305164_1_alg».proof.Proof.Gen.ReferenceIdeal
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section
namespace Cert.KernelIdeal.KVal
open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

open Idealize.ShloMosaic.ValueIdx

/-! ## Column forms of the layout operations, read at an index

A row statistic of an `[a, b]` array is an `[a]` array; it returns to the rows as an `[a, 1]` column
and then as an `[a, b]` array that is constant along each row. -/

section Layout
variable {α : Type}

/-- An `[a]` array cast to `[a, 1]` reads, at `(i, u)`, the operand at `i`. -/
theorem headShapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem headBroadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to an `[a, 1]` column reads, at `(i, u)`, the operand at `i`. -/
theorem headBroadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The host's broadcast of an `[a, 1]` column to `[a, b]` reads, at `(p, c)`, the column at row `p`. -/
theorem headBroadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` row to `[a, b]` reads, at `(p, c)`, the row at column `c`. -/
theorem headBroadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

end Layout

/-- Reducing an `[a, b]` array over its columns: the index of the result's row `p` with column `k` put back is `(p, k)`. -/
theorem headLift_row {a b : ℕ} (h : (⟨2, ![a, b]⟩ : Shape).Reduces [1] ⟨1, ![a]⟩) (p : Fin a) (k : Fin b) :
    h.lift (ix1 p) k = ix2 p k := by
  funext ax; apply Fin.ext
  match ax with
  | ⟨0, _⟩ => rfl
  | ⟨1, _⟩ => rfl

/-! ## The affine stage at an index -/

/-- The value the running maximum of a row starts from: the pattern of minus infinity. -/
abbrev headNegInf : EReal := Ideal.ofBits .f32 0xFF800000#32

/-- Entry `(p, q)` of `x w + b` for `n` rows `x` of 64 features, weights `w` and one bias row `b`: the sum over the
    features of row `p` of `x` against column `q` of `w`, plus the bias at `q`. -/
def headAffine {n : ℕ} (x : (⟨2, ![n, 64]⟩ : Shape).Idx → EReal) (w : (⟨2, ![64, 16]⟩ : Shape).Idx → EReal)
    (b : (⟨2, ![1, 16]⟩ : Shape).Idx → EReal) (p : Fin n) (q : Fin 16) : EReal :=
  (∑ k : Fin 64, x (ix2 p k) * w (ix2 k q)) + b (ix2 (0 : Fin 1) q)

/-- The block's contraction: rows of the left operand against columns of the right, over the 64 features. -/
abbrev headDK := dot_S5000x64_S64x16_S5000x16_1_0_0_1_n_n

theorem headDK_lhs0 (i : S5000x16.Idx) (k : headDK.contr.Idx) : (headDK.lhsIdx i k 0).val = (i 0).val := by
  unfold DotDims.lhsIdx
  rw [dif_neg (show ¬(0 : Fin S5000x64.rank) ∈ headDK.lhsBatch by decide),
    dif_pos (show (0 : Fin S5000x64.rank) ∈ headDK.lhsNonContracting by decide)]
  rfl

theorem headDK_rhs1 (i : S5000x16.Idx) (k : headDK.contr.Idx) : (headDK.rhsIdx i k 1).val = (i 1).val := by
  unfold DotDims.rhsIdx
  rw [dif_neg (show ¬(1 : Fin S64x16.rank) ∈ headDK.rhsBatch by decide),
    dif_pos (show (1 : Fin S64x16.rank) ∈ headDK.rhsNonContracting by decide)]
  rfl

/-- A block's matrix product into the zero accumulator, at `(p, q)`: the sum over the features. -/
theorem headBlock_matmul_apply (x : FVec Ideal S5000x64 .bf16) (w : FVec Ideal S64x16 .bf16) (p : Fin 5000) (q : Fin 16) :
    FloatOps.matmul headDK none x w (constant (F := Ideal) S5000x16 .f32 0x00000000#32) (ix2 p q)
      = ∑ k : Fin 64, x (ix2 p k) * w (ix2 k q) := by
  rw [Ideal.matmul_constant_zero_apply, ← Equiv.sum_comp (contrEquiv1 headDK 64 rfl rfl).symm]
  refine Finset.sum_congr rfl fun k _ => ?_
  have hk := contrEquiv1_symm_val headDK 64 rfl rfl k
  have el : headDK.lhsIdx (ix2 p q) ((contrEquiv1 headDK 64 rfl rfl).symm k) = ix2 p k := funext fun a => Fin.ext (by
    match a with
    | ⟨0, _⟩ => exact headDK_lhs0 _ _
    | ⟨1, _⟩ => exact (headDK.lhsIdx_val_of_single rfl _ _).trans hk)
  have er : headDK.rhsIdx (ix2 p q) ((contrEquiv1 headDK 64 rfl rfl).symm k) = ix2 k q := funext fun a => Fin.ext (by
    match a with
    | ⟨0, _⟩ => exact (headDK.rhsIdx_val_of_single rfl _ _).trans hk
    | ⟨1, _⟩ => exact headDK_rhs1 _ _)
  rw [el, er]

/-! ## The kernel's row log-softmax at an index -/

/-- What the kernel's body computes from a block `y` of 5000 rows of 16 scores — each row's maximum taken from minus
    infinity, returned to the rows as a column; the shifted block; the logarithm of each row's sum of exponentials,
    returned the same way — is, at `(p, q)`, the log-softmax of row `p` at `q`. -/
theorem headBlock_lsm_apply (y : FVec Ideal S5000x16 .f32)
    (hr : S5000x16.Reduces [1] S5000) (hc : S5000.ShapeCasts S5000x1) (hb : S5000x1.Broadcasts S5000x16)
    (hφ : FKind.Formats .f32) (hmax : (0xFF800000#32 : BitVec 32) = FKind.maximumf.neutral .f32 hφ)
    (hadd : (0x00000000#32 : BitVec 32) = FKind.add.neutral .f32 hφ) (p : Fin 5000) (q : Fin 16) :
    subf (subf y (broadcastTo S5000x16 (shapeCast S5000x1 (multiReduction .maximumf [1] S5000 y 0xFF800000#32 hr hφ hmax) hc) hb))
      (broadcastTo S5000x16 (log (shapeCast S5000x1 (multiReduction .add [1] S5000
        (exp (subf y (broadcastTo S5000x16 (shapeCast S5000x1 (multiReduction .maximumf [1] S5000 y 0xFF800000#32 hr hφ hmax) hc) hb)))
        0x00000000#32 hr hφ hadd) hc)) hb) (ix2 p q)
      = Cert.LibIdeal.lsmRow headNegInf (fun q' => y (ix2 p q')) q := by
  -- the row's maximum, wherever in the row it is read
  have hM : ∀ c : Fin 16,
      broadcastTo S5000x16 (shapeCast S5000x1 (multiReduction .maximumf [1] S5000 y 0xFF800000#32 hr hφ hmax) hc) hb (ix2 p c)
        = Finset.univ.fold max headNegInf (fun q' : Fin 16 => y (ix2 p q')) := fun c => by
    refine (headBroadcastTo_a1_ab_apply _ hb p c).trans ?_
    refine (headShapeCast_a_a1_apply _ hc p (0 : Fin 1)).trans ?_
    refine (Ideal.multiReduction_maximumf_single y _ hr hφ hmax (ix1 p)).trans ?_
    have e : (y ∘ hr.lift (ix1 p)) = fun q' : Fin 16 => y (ix2 p q') := funext fun k => congrArg y (headLift_row hr p k)
    rw [e]
    rfl
  generalize broadcastTo S5000x16 (shapeCast S5000x1 (multiReduction .maximumf [1] S5000 y 0xFF800000#32 hr hφ hmax) hc) hb = M at hM ⊢
  -- the logarithm of the row's sum of exponentials
  have hL : broadcastTo S5000x16 (log (shapeCast S5000x1 (multiReduction .add [1] S5000 (exp (subf y M)) 0x00000000#32 hr hφ hadd) hc)) hb (ix2 p q)
      = Ideal.log (∑ q' : Fin 16, Ideal.exp (y (ix2 p q') - Finset.univ.fold max headNegInf (fun q' : Fin 16 => y (ix2 p q')))) := by
    refine (headBroadcastTo_a1_ab_apply _ hb p q).trans ?_
    show Ideal.log (shapeCast S5000x1 (multiReduction .add [1] S5000 (exp (subf y M)) 0x00000000#32 hr hφ hadd) hc (ix2 p (0 : Fin 1))) = _
    refine congrArg Ideal.log ?_
    refine (headShapeCast_a_a1_apply _ hc p (0 : Fin 1)).trans ?_
    refine (Ideal.multiReduction_add_single (exp (subf y M)) _ hr hφ hadd (ix1 p)).trans ?_
    show ∑ k : Fin 16, exp (subf y M) (hr.lift (ix1 p) k) = _
    refine Finset.sum_congr rfl fun k _ => ?_
    rw [headLift_row hr p k]
    show Ideal.exp (y (ix2 p k) - M (ix2 p k)) = _
    rw [hM k]
  rw [subf_apply, hL, subf_apply, hM q]
  rfl

/-- The block's affine stage as the body writes it — the block and the weights passed through the identity casts,
    multiplied into the zero accumulator, the bias row repeated over the rows — is `headAffine` at every entry. -/
theorem headBlock_affine_apply (x0 : Vec Ideal S5000x64 .f32) (x3 : Vec Ideal S64x16 .f32) (x6 : Vec Ideal S1x16 .f32)
    (hs0 : S5000x64.ShapeCasts S5000x64) (hs6 : S1x16.ShapeCasts S1x16) (hb6 : S1x16.Broadcasts S5000x16)
    (hlt : FTy.bits .bf16 < FTy.bits .f32) (p : Fin 5000) (q : Fin 16) :
    addf (matmul headDK none (truncf .bf16 (shapeCast S5000x64 x0 hs0) hlt) (truncf .bf16 x3 hlt)
        (constant (F := Ideal) S5000x16 .f32 0x00000000#32))
      (broadcastTo S5000x16 (shapeCast S1x16 x6 hs6) hb6) (ix2 p q) = headAffine x0 x3 x6 p q := by
  rw [addf_apply, shapeCast_self, shapeCast_self]
  refine congrArg₂ (· + ·) ?_ ?_
  · exact headBlock_matmul_apply _ _ p q
  · exact broadcastTo_1b_ab_apply x6 hb6 p q

/-- THE KERNEL'S PAYLOAD at `(p, q)`: the log-softmax of row `p` of the block's affine stage, at `q`. -/
theorem headPay_apply (x0 : Vec Ideal S5000x64 .f32) (x3 : Vec Ideal S64x16 .f32) (x6 : Vec Ideal S1x16 .f32)
    (p : Fin 5000) (q : Fin 16) :
    k4_pay1 x0 x3 x6 (ix2 p q) = Cert.LibIdeal.lsmRow headNegInf (headAffine x0 x3 x6 p) q := by
  unfold k4_pay1
  refine (headBlock_lsm_apply _ _ _ _ _ _ _ p q).trans ?_
  exact Cert.LibIdeal.lsmRow_congr _ (fun q' => headBlock_affine_apply x0 x3 x6 _ _ _ _ p q') q

/-! ## The reference's classifier head at an index -/

/-- The reference's contraction: rows of all 100000 nodes against the same weights. -/
abbrev headDR := Cert.ReferenceIdeal.dot_S100000x64_S64x16_S100000x16_1_0_0_1_n_n

theorem headDR_lhs0 (i : Cert.ReferenceIdeal.S100000x16.Idx) (k : headDR.contr.Idx) : (headDR.lhsIdx i k 0).val = (i 0).val := by
  unfold DotDims.lhsIdx
  rw [dif_neg (show ¬(0 : Fin Cert.ReferenceIdeal.S100000x64.rank) ∈ headDR.lhsBatch by decide),
    dif_pos (show (0 : Fin Cert.ReferenceIdeal.S100000x64.rank) ∈ headDR.lhsNonContracting by decide)]
  rfl

theorem headDR_rhs1 (i : Cert.ReferenceIdeal.S100000x16.Idx) (k : headDR.contr.Idx) : (headDR.rhsIdx i k 1).val = (i 1).val := by
  unfold DotDims.rhsIdx
  rw [dif_neg (show ¬(1 : Fin Cert.ReferenceIdeal.S64x16.rank) ∈ headDR.rhsBatch by decide),
    dif_pos (show (1 : Fin Cert.ReferenceIdeal.S64x16.rank) ∈ headDR.rhsNonContracting by decide)]
  rfl

/-- The host's contraction at `(r, q)`: the sum over the features. -/
theorem headHost_dot_apply (x : FVec Ideal Cert.ReferenceIdeal.S100000x64 .f32) (w : FVec Ideal Cert.ReferenceIdeal.S64x16 .f32)
    (r : Fin 100000) (q : Fin 16) :
    Host.dotGeneral headDR none x w (ix2 r q) = ∑ k : Fin 64, x (ix2 r k) * w (ix2 k q) := by
  simp only [Host.dotGeneral]
  rw [Ideal.dotGeneral_apply, ← Equiv.sum_comp (contrEquiv1 headDR 64 rfl rfl).symm]
  refine Finset.sum_congr rfl fun k _ => ?_
  have hk := contrEquiv1_symm_val headDR 64 rfl rfl k
  have el : headDR.lhsIdx (ix2 r q) ((contrEquiv1 headDR 64 rfl rfl).symm k) = ix2 r k := funext fun a => Fin.ext (by
    match a with
    | ⟨0, _⟩ => exact headDR_lhs0 _ _
    | ⟨1, _⟩ => exact (headDR.lhsIdx_val_of_single rfl _ _).trans hk)
  have er : headDR.rhsIdx (ix2 r q) ((contrEquiv1 headDR 64 rfl rfl).symm k) = ix2 k q := funext fun a => Fin.ext (by
    match a with
    | ⟨0, _⟩ => exact (headDR.rhsIdx_val_of_single rfl _ _).trans hk
    | ⟨1, _⟩ => exact headDR_rhs1 _ _)
  rw [el, er]

/-- What the reference computes from the whole array `z` of scores — each row's maximum by the host's reduction from minus
    infinity, once more maximised with minus infinity, returned to the rows; the shifted array; the logarithm of each row's
    sum of exponentials from zero, returned the same way — is, at `(r, q)`, the log-softmax of row `r` at `q`. -/
theorem headHost_lsm_apply (z : FVec Ideal Cert.ReferenceIdeal.S100000x16 .f32)
    (hb0 : Cert.ReferenceIdeal.S_.BroadcastsInDim Cert.ReferenceIdeal.S100000 ![])
    (hrt : Cert.ReferenceIdeal.S100000x16.ReducesTo [1] Cert.ReferenceIdeal.S100000) (hu : 0 < Cert.ReferenceIdeal.S_.numel)
    (hb1 : Cert.ReferenceIdeal.S100000.BroadcastsInDim Cert.ReferenceIdeal.S100000x1 ![0])
    (hb2 : Cert.ReferenceIdeal.S100000x1.BroadcastsInDim Cert.ReferenceIdeal.S100000x16 ![0, 1])
    (r : Fin 100000) (q : Fin 16) :
    subf (subf z (broadcastInDim Cert.ReferenceIdeal.S100000x16 ![0, 1] hb2 (broadcastInDim Cert.ReferenceIdeal.S100000x1 ![0] hb1
        (maximumf (broadcastInDim Cert.ReferenceIdeal.S100000 ![] hb0 (constant (F := Ideal) Cert.ReferenceIdeal.S_ .f32 0xFF800000#32))
          (Host.reduce FloatOps.maximumf z (constant (F := Ideal) Cert.ReferenceIdeal.S_ .f32 0xFF800000#32) hrt hu)))))
      (broadcastInDim Cert.ReferenceIdeal.S100000x16 ![0, 1] hb2 (Host.log (broadcastInDim Cert.ReferenceIdeal.S100000x1 ![0] hb1
        (Host.reduceAdd (F := Ideal) (Host.exp (subf z (broadcastInDim Cert.ReferenceIdeal.S100000x16 ![0, 1] hb2
            (broadcastInDim Cert.ReferenceIdeal.S100000x1 ![0] hb1
              (maximumf (broadcastInDim Cert.ReferenceIdeal.S100000 ![] hb0 (constant (F := Ideal) Cert.ReferenceIdeal.S_ .f32 0xFF800000#32))
                (Host.reduce FloatOps.maximumf z (constant (F := Ideal) Cert.ReferenceIdeal.S_ .f32 0xFF800000#32) hrt hu))))))
          (constant (F := Ideal) Cert.ReferenceIdeal.S_ .f32 0x00000000#32) hrt hu)))) (ix2 r q)
      = Cert.LibIdeal.lsmRow headNegInf (fun q' => z (ix2 r q')) q := by
  have hr : Cert.ReferenceIdeal.S100000x16.Reduces [1] Cert.ReferenceIdeal.S100000 := by decide
  -- the row's maximum, wherever in the row it is read
  have hM : ∀ c : Fin 16,
      broadcastInDim Cert.ReferenceIdeal.S100000x16 ![0, 1] hb2 (broadcastInDim Cert.ReferenceIdeal.S100000x1 ![0] hb1
        (maximumf (broadcastInDim Cert.ReferenceIdeal.S100000 ![] hb0 (constant (F := Ideal) Cert.ReferenceIdeal.S_ .f32 0xFF800000#32))
          (Host.reduce FloatOps.maximumf z (constant (F := Ideal) Cert.ReferenceIdeal.S_ .f32 0xFF800000#32) hrt hu))) (ix2 r c)
        = Finset.univ.fold max headNegInf (fun q' : Fin 16 => z (ix2 r q')) := fun c => by
    refine (headBroadcastInDim_a1_ab_apply _ hb2 r c).trans ?_
    refine (headBroadcastInDim_a_a1_apply _ hb1 r (0 : Fin 1)).trans ?_
    rw [maximumf_apply, broadcastInDim_scalar_apply, Host.reduce_eq_fold_single FloatOps.maximumf z _ hrt hr hu (ix1 r)]
    have e : (z ∘ hr.lift (ix1 r)) = fun q' : Fin 16 => z (ix2 r q') := funext fun k => congrArg z (headLift_row hr r k)
    rw [e]
    exact Cert.LibIdeal.max_fold_max_self Finset.univ headNegInf (fun q' : Fin 16 => z (ix2 r q'))
  generalize broadcastInDim Cert.ReferenceIdeal.S100000x16 ![0, 1] hb2 (broadcastInDim Cert.ReferenceIdeal.S100000x1 ![0] hb1
        (maximumf (broadcastInDim Cert.ReferenceIdeal.S100000 ![] hb0 (constant (F := Ideal) Cert.ReferenceIdeal.S_ .f32 0xFF800000#32))
          (Host.reduce FloatOps.maximumf z (constant (F := Ideal) Cert.ReferenceIdeal.S_ .f32 0xFF800000#32) hrt hu))) = M at hM ⊢
  -- the logarithm of the row's sum of exponentials
  have hL : broadcastInDim Cert.ReferenceIdeal.S100000x16 ![0, 1] hb2 (Host.log (broadcastInDim Cert.ReferenceIdeal.S100000x1 ![0] hb1
        (Host.reduceAdd (F := Ideal) (Host.exp (subf z M)) (constant (F := Ideal) Cert.ReferenceIdeal.S_ .f32 0x00000000#32) hrt hu))) (ix2 r q)
      = Ideal.log (∑ q' : Fin 16, Ideal.exp (z (ix2 r q') - Finset.univ.fold max headNegInf (fun q' : Fin 16 => z (ix2 r q')))) := by
    refine (headBroadcastInDim_a1_ab_apply _ hb2 r q).trans ?_
    show FloatOps.hostUnary .log (broadcastInDim Cert.ReferenceIdeal.S100000x1 ![0] hb1
        (Host.reduceAdd (F := Ideal) (Host.exp (subf z M)) (constant (F := Ideal) Cert.ReferenceIdeal.S_ .f32 0x00000000#32) hrt hu) (ix2 r (0 : Fin 1))) = _
    rw [Ideal.hostUnary_log_def]
    refine congrArg Ideal.log ?_
    refine (headBroadcastInDim_a_a1_apply _ hb1 r (0 : Fin 1)).trans ?_
    rw [hostReduceAdd_apply, Ideal.hostReduceAdd_single hrt hr]
    show Ideal.ofBits .f32 0x00000000#32 + ∑ k : Fin 16, Host.exp (subf z M) (hr.lift (ix1 r) k) = _
    rw [Ideal.ofBits_zero_f32, zero_add]
    refine Finset.sum_congr rfl fun k _ => ?_
    rw [headLift_row hr r k]
    show FloatOps.hostUnary .exp (subf z M (ix2 r k)) = _
    rw [Ideal.hostUnary_exp_def, subf_apply, hM k]
  rw [subf_apply, hL, subf_apply, hM q]
  rfl

/-- The reference's row log-softmax of an array `z` of scores, at `(r, q)`. -/
theorem headRef_lsm_apply (z : (⟨Cert.ReferenceIdeal.S100000x16, .f32⟩ : BufTy).Contents (Elt Ideal)) (r : Fin 100000) (q : Fin 16) :
    Cert.GCN.logSoftmax (F := Ideal) z (ix2 r q) = Cert.LibIdeal.lsmRow headNegInf (fun q' => z (ix2 r q')) q := by
  unfold Cert.GCN.logSoftmax
  exact headHost_lsm_apply z _ _ _ _ _ r q

/-- THE REFERENCE'S HEAD at `(r, q)`: the log-softmax of row `r` of the affine stage of all the rows, at `q`. -/
theorem headRow_apply (h : (⟨Cert.ReferenceIdeal.S100000x64, .f32⟩ : BufTy).Contents (Elt Ideal))
    (w : (⟨Cert.ReferenceIdeal.S64x16, .f32⟩ : BufTy).Contents (Elt Ideal))
    (b : (⟨Cert.ReferenceIdeal.S1x16, .f32⟩ : BufTy).Contents (Elt Ideal)) (r : Fin 100000) (q : Fin 16) :
    Cert.GCN.headRow (F := Ideal) h w b (ix2 r q) = Cert.LibIdeal.lsmRow headNegInf (headAffine h w b r) q := by
  unfold Cert.GCN.headRow
  refine (headRef_lsm_apply _ r q).trans ?_
  refine Cert.LibIdeal.lsmRow_congr _ (fun q' => ?_) q
  rw [addf_apply]
  exact congrArg₂ (· + ·) (headHost_dot_apply h w r q') (headBroadcastInDim_1b_ab_apply b _ r q')

/-! ## From the blocks to the array

Point `t` of the 20 reads rows `5000 t … 5000 t + 4999` of the hidden features, all the weights and the bias row, and
writes the same rows of the result. -/

theorem headZero_off : (![0, 0] : Fin 2 → Nat) = fun _ => 0 := funext fun a => by fin_cases a <;> rfl

/-- The printed index maps, decided over the grid: the row windows sit at block `t` along the rows, the weights' and the
    bias row's at block zero. -/
theorem headIdx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- WHAT POINT `t` WRITES BACK is block `t` of the reference's head of the arrays as the region finds them. -/
theorem headFlushed_eq (c : Dev nD) (t : Fin cfg4.N) :
    (dat4 (F := Ideal) V c).flushed 3 t
      = ((cfg4.win 3).blk t).view.read (Elt Ideal)
          (Cert.GCN.headRow (F := Ideal) (V c main_v58) (V c main_arg6) (V c main_v59)) := by
  show (cfg4.win 3).cut (grid4.coords t) ((dat4 (F := Ideal) V c).after 3 t) = _
  rw [after4_3]
  unfold out4_3
  rw [View.canon_unit_zero headZero_off]
  simp only [View.ld_unit_zero (S := S5000x64) headZero_off, View.ld_unit_zero (S := S64x16) headZero_off,
    View.ld_unit_zero (S := S1x16) headZero_off]
  obtain ⟨e00, e01, e10, e11, e20, e21, e30, e31⟩ := headIdx_facts t
  have ht : t.val < 20 := Nat.lt_of_lt_of_eq t.isLt N_4
  funext (j : S5000x16.Idx)
  obtain ⟨p, q, rfl⟩ : ∃ (p : Fin 5000) (q : Fin 16), j = ix2 p q := ⟨j 0, j 1, eq_ix2 j⟩
  have hp : p.val < 5000 := p.isLt
  have hrow : t.val * 5000 + p.val < 100000 := by omega
  show k4_pay1 (iblk4 V c 0 t) (iblk4 V c 1 t) (iblk4 V c 2 t) (ix2 p q)
    = Cert.GCN.headRow (F := Ideal) (V c main_v58) (V c main_arg6) (V c main_v59) (((cfg4.win 3).blk t).view.emb (ix2 p q))
  -- the entry of the array under entry (p, q) of the block
  have hemb : ((cfg4.win 3).blk t).view.emb (ix2 p q) = ix2 (⟨t.val * 5000 + p.val, hrow⟩ : Fin 100000) q := by
    funext a; apply Fin.ext
    match a with
    | ⟨0, _⟩ => show win4_3.index t (0 : Fin 2) * 5000 + 1 * p.val = t.val * 5000 + p.val; omega
    | ⟨1, _⟩ => show win4_3.index t (1 : Fin 2) * 16 + 1 * q.val = q.val; omega
  refine (headPay_apply _ _ _ p q).trans ?_
  refine Eq.trans ?_ (congrArg (Cert.GCN.headRow (F := Ideal) (V c main_v58) (V c main_arg6) (V c main_v59)) hemb).symm
  refine Eq.trans ?_ (headRow_apply _ _ _ ⟨t.val * 5000 + p.val, hrow⟩ q).symm
  refine Cert.LibIdeal.lsmRow_congr _ (fun q' => ?_) q
  unfold headAffine
  refine congrArg₂ (· + ·) (Finset.sum_congr rfl fun k _ => congrArg₂ (· * ·) ?_ ?_) ?_
  · show V c main_v58 (((cfg4.win 0).blk t).view.emb (ix2 p k)) = V c main_v58 (ix2 (⟨t.val * 5000 + p.val, hrow⟩ : Fin 100000) k)
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * k.val = k.val; omega
  · show V c main_arg6 (((cfg4.win 1).blk t).view.emb (ix2 k q')) = V c main_arg6 (ix2 k q')
    refine congrArg _ (funext fun a => Fin.ext ?_)
    match a with
    | ⟨0, _⟩ => show win4_1.index t (0 : Fin 2) * 64 + 1 * k.val = k.val; omega
    | ⟨1, _⟩ => show win4_1.index t (1 : Fin 2) * 16 + 1 * q'.val = q'.val; omega
  · show V c main_v59 (((cfg4.win 2).blk t).view.emb (ix2 (0 : Fin 1) q')) = V c main_v59 (ix2 (0 : Fin 1) q')
    refine congrArg _ (funext fun a => Fin.ext ?_)
    match a with
    | ⟨0, _⟩ => show win4_2.index t (0 : Fin 2) * 1 + 1 * (0 : Fin 1).val = (0 : Fin 1).val; omega
    | ⟨1, _⟩ => show win4_2.index t (1 : Fin 2) * 16 + 1 * q'.val = q'.val; omega

/-- An entry of the array is in point `t`'s block iff each coordinate is in the block's range on its axis. -/
theorem headMem_blk (t : Fin cfg4.N) (i : S100000x16.Idx) :
    i ∈ ((cfg4.win 3).blk t).view.set ↔ ∀ a : Fin 2, win4_3.index t a * S5000x16.size a ≤ (i a).val
      ∧ (i a).val < win4_3.index t a * S5000x16.size a + S5000x16.size a := by
  show i ∈ ((View.whole main_v60).slice (win4_3.rect t)).set ↔ _
  rw [View.set_slice_whole, Rect.mem_set_unit]
  exact Iff.rfl

/-- The 20 blocks of 5000 rows cover the array: row `r` is in the block of point `r / 5000`. -/
theorem headCover (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  have hq : (i 0).val / 5000 < grid4.N := by rw [N_4]; omega
  obtain ⟨-, -, -, -, -, -, e30, e31⟩ := headIdx_facts ⟨(i 0).val / 5000, hq⟩
  refine ⟨⟨(i 0).val / 5000, hq⟩, flush4_3 _, ?_⟩
  rw [headMem_blk]
  intro a
  match a with
  | ⟨0, _⟩ =>
    show win4_3.index ⟨(i 0).val / 5000, hq⟩ (0 : Fin 2) * 5000 ≤ (i 0).val
      ∧ (i 0).val < win4_3.index ⟨(i 0).val / 5000, hq⟩ (0 : Fin 2) * 5000 + 5000
    rw [e30]
    show (i 0).val / 5000 * 5000 ≤ (i 0).val ∧ (i 0).val < (i 0).val / 5000 * 5000 + 5000
    omega
  | ⟨1, _⟩ =>
    show win4_3.index ⟨(i 0).val / 5000, hq⟩ (1 : Fin 2) * 16 ≤ (i 1).val
      ∧ (i 1).val < win4_3.index ⟨(i 0).val / 5000, hq⟩ (1 : Fin 2) * 16 + 16
    omega

/-- THE ARRAY after the region: the reference's classifier head of the arrays as the region finds them. -/
theorem head4_final (c : Dev nD) :
    (dat4 (F := Ideal) V c).arrAt 3 cfg4.N
      = Cert.GCN.headRow (F := Ideal) (V c main_v58) (V c main_arg6) (V c main_v59) :=
  (dat4 (F := Ideal) V c).arrAt_eq_of_cover 3 _ (fun t _ => headFlushed_eq V c t) headCover

end Cert.KernelIdeal.KVal
end
-- ==== Proof.KWalk.lean ====
/-
  The kernel program's buffers, boundary by boundary.

  Between the launch and the return the kernel program crosses nine boundaries: four stretches of host operations and
  five row-blocked kernels. A host stretch is read like the reference's stages: its results are the specification's
  functions of what it finds, and a buffer it does not write keeps its contents. A kernel leaves its output array at
  the whole-array function its blocks are restrictions of (the modules on the three kinds of kernel) and every other
  buffer as entered. Walking the boundaries in order, the buffers that matter hold:

    1  the edge rows' sources, destinations and weights;          2  x W1;
    3  its aggregation, and the bias b1 as a row;                  4  layer 1 = relu (agg + b1);
    5  layer 1 times W2;                                           6  its aggregation, and b2 as a row;
    7  layer 2, the hidden features;                               8  b3 as a row;
    9  the head of layer 2: the class log-probabilities.

  A bias reshaped to a row and the bias broadcast into a row are the same row, so these are the specification's
  `hidden` and `logp` of the launched arguments.
-/
import proofs.«107051_j3899830305164_1_alg».proof.Proof.Spec
import proofs.«107051_j3899830305164_1_alg».proof.Proof.KRun
import proofs.«107051_j3899830305164_1_alg».proof.Proof.RegLin
import proofs.«107051_j3899830305164_1_alg».proof.Proof.RegBias
import proofs.«107051_j3899830305164_1_alg».proof.Proof.RegHead
import proofs.«107051_j3899830305164_1_alg».proof.Proof.Gen.ReferenceIdeal
import Idealize.ShloMosaic.Lib.Pipeline.Value
import Idealize.ShloMosaic.Lib.ValueIdx
import Idealize.ShloMosaic.Lib.StableHlo.Run

set_option maxRecDepth 16384

noncomputable section

namespace Cert.KernelIdeal.KVal

open Cert.KernelIdeal Cert.KernelIdeal.Gen Idealize.ShloMosaic Idealize.ShloMosaic.TcCoe Idealize.SL.Sem
open Cert.KernelIdeal.Facts₀ Cert.KernelIdeal.Facts

variable {F : FTy → Type} [FloatOps F]

/-! ## The bias rows

The kernels take a bias as one row, the vector reshaped to [1, n]; the reference broadcasts the vector into that
row. Both rows hold the vector's entry `q` at `(0, q)`. -/

/-- A vector of 64 as one row [1, 64]. -/
def row64 (b : (⟨S64, .f32⟩ : BufTy).Contents (Elt F)) : (⟨S1x64, .f32⟩ : BufTy).Contents (Elt F) :=
  shapeCast S1x64 b Facts₀.shapeCasts_S64_S1x64
/-- A vector of 16 as one row [1, 16]. -/
def row16 (b : (⟨S16, .f32⟩ : BufTy).Contents (Elt F)) : (⟨S1x16, .f32⟩ : BufTy).Contents (Elt F) :=
  shapeCast S1x16 b Facts₀.shapeCasts_S16_S1x16

theorem row64_eq (b : (⟨S64, .f32⟩ : BufTy).Contents (Elt F)) :
    row64 b = broadcastInDim Cert.ReferenceIdeal.S1x64 ![1] Cert.ReferenceIdeal.Facts₀.bcast_S64_S1x64_1 b := by
  funext j
  unfold row64
  refine (shapeCast_addUnit_apply ![64] b _ j).trans ?_
  refine (broadcastInDim_apply (s := Cert.ReferenceIdeal.S64) (t := Cert.ReferenceIdeal.S1x64) ![1] _ b j (fun a => j a.succ) ?_).symm
  intro a
  match a with
  | ⟨0, _⟩ => rfl

theorem row16_eq (b : (⟨S16, .f32⟩ : BufTy).Contents (Elt F)) :
    row16 b = broadcastInDim Cert.ReferenceIdeal.S1x16 ![1] Cert.ReferenceIdeal.Facts₀.bcast_S16_S1x16_1 b := by
  funext j
  unfold row16
  refine (shapeCast_addUnit_apply ![16] b _ j).trans ?_
  refine (broadcastInDim_apply (s := Cert.ReferenceIdeal.S16) (t := Cert.ReferenceIdeal.S1x16) ![1] _ b j (fun a => j a.succ) ?_).symm
  intro a
  match a with
  | ⟨0, _⟩ => rfl

/-! ## The host stretches, read over an arbitrary entry state

Each stretch's results are the specification's functions of what it finds; a buffer it does not write keeps its
contents. -/

section Host
variable (X : Valuation τ sig (Elt F))

theorem H0_src : StableHlo.after (hostOps0 (F := F)) X (Proc.devRef .tc main_v3) = Cert.GCN.src (F := F) (X (Proc.devRef .tc main_arg1)) := by
  simp only [hostOps0]; after_results_simp <;> rfl
theorem H0_dst : StableHlo.after (hostOps0 (F := F)) X (Proc.devRef .tc main_v6) = Cert.GCN.dst (F := F) (X (Proc.devRef .tc main_arg1)) := by
  simp only [hostOps0]; after_results_simp <;> rfl
theorem H0_norm : StableHlo.after (hostOps0 (F := F)) X (Proc.devRef .tc main_v26) = Cert.GCN.norm (F := F) (X (Proc.devRef .tc main_arg1)) := by
  simp only [hostOps0]; after_results_simp <;> rfl
theorem H0_arg0 : StableHlo.after (hostOps0 (F := F)) X (Proc.devRef .tc main_arg0) = X (Proc.devRef .tc main_arg0) := by
  simp only [hostOps0]; after_results_simp <;> rfl
theorem H0_arg2 : StableHlo.after (hostOps0 (F := F)) X (Proc.devRef .tc main_arg2) = X (Proc.devRef .tc main_arg2) := by
  simp only [hostOps0]; after_results_simp <;> rfl
theorem H0_arg3 : StableHlo.after (hostOps0 (F := F)) X (Proc.devRef .tc main_arg3) = X (Proc.devRef .tc main_arg3) := by
  simp only [hostOps0]; after_results_simp <;> rfl
theorem H0_arg4 : StableHlo.after (hostOps0 (F := F)) X (Proc.devRef .tc main_arg4) = X (Proc.devRef .tc main_arg4) := by
  simp only [hostOps0]; after_results_simp <;> rfl
theorem H0_arg5 : StableHlo.after (hostOps0 (F := F)) X (Proc.devRef .tc main_arg5) = X (Proc.devRef .tc main_arg5) := by
  simp only [hostOps0]; after_results_simp <;> rfl
theorem H0_arg6 : StableHlo.after (hostOps0 (F := F)) X (Proc.devRef .tc main_arg6) = X (Proc.devRef .tc main_arg6) := by
  simp only [hostOps0]; after_results_simp <;> rfl
theorem H0_arg7 : StableHlo.after (hostOps0 (F := F)) X (Proc.devRef .tc main_arg7) = X (Proc.devRef .tc main_arg7) := by
  simp only [hostOps0]; after_results_simp <;> rfl

theorem H1_agg : StableHlo.after (hostOps1 (F := F)) X (Proc.devRef .tc main_v40)
    = Cert.GCN.aggWith (F := F) (X (Proc.devRef .tc main_v3)) (X (Proc.devRef .tc main_v6)) (X (Proc.devRef .tc main_v26)) (X (Proc.devRef .tc main_v27)) := by
  simp only [hostOps1]; after_results_simp <;> rfl
theorem H1_bias : StableHlo.after (hostOps1 (F := F)) X (Proc.devRef .tc main_v41) = row64 (F := F) (X (Proc.devRef .tc main_arg3)) := by
  simp only [hostOps1]; after_results_simp <;> rfl
theorem H1_v3 : StableHlo.after (hostOps1 (F := F)) X (Proc.devRef .tc main_v3) = X (Proc.devRef .tc main_v3) := by
  simp only [hostOps1]; after_results_simp <;> rfl
theorem H1_v6 : StableHlo.after (hostOps1 (F := F)) X (Proc.devRef .tc main_v6) = X (Proc.devRef .tc main_v6) := by
  simp only [hostOps1]; after_results_simp <;> rfl
theorem H1_v26 : StableHlo.after (hostOps1 (F := F)) X (Proc.devRef .tc main_v26) = X (Proc.devRef .tc main_v26) := by
  simp only [hostOps1]; after_results_simp <;> rfl
theorem H1_arg4 : StableHlo.after (hostOps1 (F := F)) X (Proc.devRef .tc main_arg4) = X (Proc.devRef .tc main_arg4) := by
  simp only [hostOps1]; after_results_simp <;> rfl
theorem H1_arg5 : StableHlo.after (hostOps1 (F := F)) X (Proc.devRef .tc main_arg5) = X (Proc.devRef .tc main_arg5) := by
  simp only [hostOps1]; after_results_simp <;> rfl
theorem H1_arg6 : StableHlo.after (hostOps1 (F := F)) X (Proc.devRef .tc main_arg6) = X (Proc.devRef .tc main_arg6) := by
  simp only [hostOps1]; after_results_simp <;> rfl
theorem H1_arg7 : StableHlo.after (hostOps1 (F := F)) X (Proc.devRef .tc main_arg7) = X (Proc.devRef .tc main_arg7) := by
  simp only [hostOps1]; after_results_simp <;> rfl

theorem H3_agg : StableHlo.after (hostOps3 (F := F)) X (Proc.devRef .tc main_v56)
    = Cert.GCN.aggWith (F := F) (X (Proc.devRef .tc main_v3)) (X (Proc.devRef .tc main_v6)) (X (Proc.devRef .tc main_v26)) (X (Proc.devRef .tc main_v43)) := by
  simp only [hostOps3]; after_results_simp <;> rfl
theorem H3_bias : StableHlo.after (hostOps3 (F := F)) X (Proc.devRef .tc main_v57) = row64 (F := F) (X (Proc.devRef .tc main_arg5)) := by
  simp only [hostOps3]; after_results_simp <;> rfl
theorem H3_arg6 : StableHlo.after (hostOps3 (F := F)) X (Proc.devRef .tc main_arg6) = X (Proc.devRef .tc main_arg6) := by
  simp only [hostOps3]; after_results_simp <;> rfl
theorem H3_arg7 : StableHlo.after (hostOps3 (F := F)) X (Proc.devRef .tc main_arg7) = X (Proc.devRef .tc main_arg7) := by
  simp only [hostOps3]; after_results_simp <;> rfl

theorem H4_bias : StableHlo.after (hostOps4 (F := F)) X (Proc.devRef .tc main_v59) = row16 (F := F) (X (Proc.devRef .tc main_arg7)) := by
  simp only [hostOps4]; after_results_simp <;> rfl
theorem H4_v58 : StableHlo.after (hostOps4 (F := F)) X (Proc.devRef .tc main_v58) = X (Proc.devRef .tc main_v58) := by
  simp only [hostOps4]; after_results_simp <;> rfl
theorem H4_arg6 : StableHlo.after (hostOps4 (F := F)) X (Proc.devRef .tc main_arg6) = X (Proc.devRef .tc main_arg6) := by
  simp only [hostOps4]; after_results_simp <;> rfl

end Host

/-! ## The boundaries, one after the other, at the exact instance -/

variable (m : (ℓ : Loc nD τ sig) → Buf (Elt Ideal) ℓ) (ρ : Dev nD → PrngReg) (c : Dev nD)

/-- The edge rows' sources, destinations and weights, from the edge list as launched. -/
abbrev eSrc := Cert.GCN.src (F := Ideal) (m ((c : Thread nD τ).loc main_arg1))
abbrev eDst := Cert.GCN.dst (F := Ideal) (m ((c : Thread nD τ).loc main_arg1))
abbrev eNorm := Cert.GCN.norm (F := Ideal) (m ((c : Thread nD τ).loc main_arg1))

/-- The first layer's result with the bias as a row. -/
def layer1 : (⟨S100000x64, .f32⟩ : BufTy).Contents (Elt Ideal) :=
  Cert.GCN.biasReluRow (F := Ideal) (Cert.GCN.aggWith (F := Ideal) (eSrc m c) (eDst m c) (eNorm m c) (Cert.GCN.lin (F := Ideal) (m ((c : Thread nD τ).loc main_arg0)) (m ((c : Thread nD τ).loc main_arg2)))) (row64 (F := Ideal) (m ((c : Thread nD τ).loc main_arg3)))
/-- The second layer's result with the bias as a row. -/
def layer2 : (⟨S100000x64, .f32⟩ : BufTy).Contents (Elt Ideal) :=
  Cert.GCN.biasReluRow (F := Ideal) (Cert.GCN.aggWith (F := Ideal) (eSrc m c) (eDst m c) (eNorm m c) (Cert.GCN.lin (F := Ideal) (layer1 m c) (m ((c : Thread nD τ).loc main_arg4)))) (row64 (F := Ideal) (m ((c : Thread nD τ).loc main_arg5)))
/-- The head's result with the bias as a row. -/
def headOut : (⟨S100000x16, .f32⟩ : BufTy).Contents (Elt Ideal) :=
  Cert.GCN.headRow (F := Ideal) (layer2 m c) (m ((c : Thread nD τ).loc main_arg6)) (row16 (F := Ideal) (m ((c : Thread nD τ).loc main_arg7)))

/-! ### Boundary 1: after the first host stretch -/
theorem W1_v3 : W1 m ρ c (Proc.devRef .tc main_v3) = eSrc m c := H0_src (W0 m ρ c)
theorem W1_v6 : W1 m ρ c (Proc.devRef .tc main_v6) = eDst m c := H0_dst (W0 m ρ c)
theorem W1_v26 : W1 m ρ c (Proc.devRef .tc main_v26) = eNorm m c := H0_norm (W0 m ρ c)
theorem W1_arg0 : W1 m ρ c (Proc.devRef .tc main_arg0) = (m ((c : Thread nD τ).loc main_arg0)) := H0_arg0 (W0 m ρ c)
theorem W1_arg2 : W1 m ρ c (Proc.devRef .tc main_arg2) = (m ((c : Thread nD τ).loc main_arg2)) := H0_arg2 (W0 m ρ c)
theorem W1_arg3 : W1 m ρ c (Proc.devRef .tc main_arg3) = (m ((c : Thread nD τ).loc main_arg3)) := H0_arg3 (W0 m ρ c)
theorem W1_arg4 : W1 m ρ c (Proc.devRef .tc main_arg4) = (m ((c : Thread nD τ).loc main_arg4)) := H0_arg4 (W0 m ρ c)
theorem W1_arg5 : W1 m ρ c (Proc.devRef .tc main_arg5) = (m ((c : Thread nD τ).loc main_arg5)) := H0_arg5 (W0 m ρ c)
theorem W1_arg6 : W1 m ρ c (Proc.devRef .tc main_arg6) = (m ((c : Thread nD τ).loc main_arg6)) := H0_arg6 (W0 m ρ c)
theorem W1_arg7 : W1 m ρ c (Proc.devRef .tc main_arg7) = (m ((c : Thread nD τ).loc main_arg7)) := H0_arg7 (W0 m ρ c)

/-! ### Boundary 2: after the first matrix product -/
theorem W2_v27 : W2 m ρ c (Proc.devRef .tc main_v27) = Cert.GCN.lin (F := Ideal) (m ((c : Thread nD τ).loc main_arg0)) (m ((c : Thread nD τ).loc main_arg2)) := by
  refine (W2_arr m ρ c 2).trans ((lin0_final (V1 m ρ) c).trans ?_)
  show Cert.GCN.lin (F := Ideal) (W1 m ρ c (Proc.devRef .tc main_arg0)) (W1 m ρ c (Proc.devRef .tc main_arg2)) = _
  rw [W1_arg0, W1_arg2]
theorem W2_v3 : W2 m ρ c (Proc.devRef .tc main_v3) = eSrc m c :=
  (W2_of_ne m ρ c main_v3 (by decide)).trans (W1_v3 m ρ c)
theorem W2_v6 : W2 m ρ c (Proc.devRef .tc main_v6) = eDst m c :=
  (W2_of_ne m ρ c main_v6 (by decide)).trans (W1_v6 m ρ c)
theorem W2_v26 : W2 m ρ c (Proc.devRef .tc main_v26) = eNorm m c :=
  (W2_of_ne m ρ c main_v26 (by decide)).trans (W1_v26 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)

/-! ### Boundary 3: after the first aggregation -/
theorem W3_v40 : W3 m ρ c (Proc.devRef .tc main_v40) = Cert.GCN.aggWith (F := Ideal) (eSrc m c) (eDst m c) (eNorm m c) (Cert.GCN.lin (F := Ideal) (m ((c : Thread nD τ).loc main_arg0)) (m ((c : Thread nD τ).loc main_arg2))) := by
  refine (H1_agg (W2 m ρ c)).trans ?_
  rw [W2_v3, W2_v6, W2_v26, W2_v27]
theorem W3_v41 : W3 m ρ c (Proc.devRef .tc main_v41) = row64 (F := Ideal) (m ((c : Thread nD τ).loc main_arg3)) := by
  refine (H1_bias (W2 m ρ c)).trans ?_
  rw [W2_arg3]
theorem W3_v3 : W3 m ρ c (Proc.devRef .tc main_v3) = eSrc m c :=
  (H1_v3 (W2 m ρ c)).trans (W2_v3 m ρ c)
theorem W3_v6 : W3 m ρ c (Proc.devRef .tc main_v6) = eDst m c :=
  (H1_v6 (W2 m ρ c)).trans (W2_v6 m ρ c)
theorem W3_v26 : W3 m ρ c (Proc.devRef .tc main_v26) = eNorm m c :=
  (H1_v26 (W2 m ρ c)).trans (W2_v26 m ρ c)
theorem W3_arg4 : W3 m ρ c (Proc.devRef .tc main_arg4) = (m ((c : Thread nD τ).loc main_arg4)) :=
  (H1_arg4 (W2 m ρ c)).trans (W2_arg4 m ρ c)
theorem W3_arg5 : W3 m ρ c (Proc.devRef .tc main_arg5) = (m ((c : Thread nD τ).loc main_arg5)) :=
  (H1_arg5 (W2 m ρ c)).trans (W2_arg5 m ρ c)
theorem W3_arg6 : W3 m ρ c (Proc.devRef .tc main_arg6) = (m ((c : Thread nD τ).loc main_arg6)) :=
  (H1_arg6 (W2 m ρ c)).trans (W2_arg6 m ρ c)
theorem W3_arg7 : W3 m ρ c (Proc.devRef .tc main_arg7) = (m ((c : Thread nD τ).loc main_arg7)) :=
  (H1_arg7 (W2 m ρ c)).trans (W2_arg7 m ρ c)

/-! ### Boundary 4: after the first bias + relu -/
theorem W4_v42 : W4 m ρ c (Proc.devRef .tc main_v42) = layer1 m c := by
  refine (W4_arr m ρ c 2).trans ((br1_final (V3 m ρ) c).trans ?_)
  show Cert.GCN.biasReluRow (F := Ideal) (W3 m ρ c (Proc.devRef .tc main_v40)) (W3 m ρ c (Proc.devRef .tc main_v41)) = _
  rw [W3_v40, W3_v41]; rfl
theorem W4_v3 : W4 m ρ c (Proc.devRef .tc main_v3) = eSrc m c :=
  (W4_of_ne m ρ c main_v3 (by decide)).trans (W3_v3 m ρ c)
theorem W4_v6 : W4 m ρ c (Proc.devRef .tc main_v6) = eDst m c :=
  (W4_of_ne m ρ c main_v6 (by decide)).trans (W3_v6 m ρ c)
theorem W4_v26 : W4 m ρ c (Proc.devRef .tc main_v26) = eNorm m c :=
  (W4_of_ne m ρ c main_v26 (by decide)).trans (W3_v26 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)

/-! ### Boundary 5: after the second matrix product -/
theorem W5_v43 : W5 m ρ c (Proc.devRef .tc main_v43) = Cert.GCN.lin (F := Ideal) (layer1 m c) (m ((c : Thread nD τ).loc main_arg4)) := by
  refine (W5_arr m ρ c 2).trans ((lin2_final (V4 m ρ) c).trans ?_)
  show Cert.GCN.lin (F := Ideal) (W4 m ρ c (Proc.devRef .tc main_v42)) (W4 m ρ c (Proc.devRef .tc main_arg4)) = _
  rw [W4_v42, W4_arg4]
theorem W5_v3 : W5 m ρ c (Proc.devRef .tc main_v3) = eSrc m c :=
  (W5_of_ne m ρ c main_v3 (by decide)).trans (W4_v3 m ρ c)
theorem W5_v6 : W5 m ρ c (Proc.devRef .tc main_v6) = eDst m c :=
  (W5_of_ne m ρ c main_v6 (by decide)).trans (W4_v6 m ρ c)
theorem W5_v26 : W5 m ρ c (Proc.devRef .tc main_v26) = eNorm m c :=
  (W5_of_ne m ρ c main_v26 (by decide)).trans (W4_v26 m ρ c)
theorem W5_arg5 : W5 m ρ c (Proc.devRef .tc main_arg5) = (m ((c : Thread nD τ).loc main_arg5)) :=
  (W5_of_ne m ρ c main_arg5 (by decide)).trans (W4_arg5 m ρ c)
theorem W5_arg6 : W5 m ρ c (Proc.devRef .tc main_arg6) = (m ((c : Thread nD τ).loc main_arg6)) :=
  (W5_of_ne m ρ c main_arg6 (by decide)).trans (W4_arg6 m ρ c)
theorem W5_arg7 : W5 m ρ c (Proc.devRef .tc main_arg7) = (m ((c : Thread nD τ).loc main_arg7)) :=
  (W5_of_ne m ρ c main_arg7 (by decide)).trans (W4_arg7 m ρ c)

/-! ### Boundary 6: after the second aggregation -/
theorem W6_v56 : W6 m ρ c (Proc.devRef .tc main_v56) = Cert.GCN.aggWith (F := Ideal) (eSrc m c) (eDst m c) (eNorm m c) (Cert.GCN.lin (F := Ideal) (layer1 m c) (m ((c : Thread nD τ).loc main_arg4))) := by
  refine (H3_agg (W5 m ρ c)).trans ?_
  rw [W5_v3, W5_v6, W5_v26, W5_v43]
theorem W6_v57 : W6 m ρ c (Proc.devRef .tc main_v57) = row64 (F := Ideal) (m ((c : Thread nD τ).loc main_arg5)) := by
  refine (H3_bias (W5 m ρ c)).trans ?_
  rw [W5_arg5]
theorem W6_arg6 : W6 m ρ c (Proc.devRef .tc main_arg6) = (m ((c : Thread nD τ).loc main_arg6)) :=
  (H3_arg6 (W5 m ρ c)).trans (W5_arg6 m ρ c)
theorem W6_arg7 : W6 m ρ c (Proc.devRef .tc main_arg7) = (m ((c : Thread nD τ).loc main_arg7)) :=
  (H3_arg7 (W5 m ρ c)).trans (W5_arg7 m ρ c)

/-! ### Boundary 7: after the second bias + relu -/
theorem W7_v58 : W7 m ρ c (Proc.devRef .tc main_v58) = layer2 m c := by
  refine (W7_arr m ρ c 2).trans ((br3_final (V6 m ρ) c).trans ?_)
  show Cert.GCN.biasReluRow (F := Ideal) (W6 m ρ c (Proc.devRef .tc main_v56)) (W6 m ρ c (Proc.devRef .tc main_v57)) = _
  rw [W6_v56, W6_v57]; rfl
theorem W7_arg6 : W7 m ρ c (Proc.devRef .tc main_arg6) = (m ((c : Thread nD τ).loc main_arg6)) :=
  (W7_of_ne m ρ c main_arg6 (by decide)).trans (W6_arg6 m ρ c)
theorem W7_arg7 : W7 m ρ c (Proc.devRef .tc main_arg7) = (m ((c : Thread nD τ).loc main_arg7)) :=
  (W7_of_ne m ρ c main_arg7 (by decide)).trans (W6_arg7 m ρ c)

/-! ### Boundary 8: after the last host stretch -/
theorem W8_v59 : W8 m ρ c (Proc.devRef .tc main_v59) = row16 (F := Ideal) (m ((c : Thread nD τ).loc main_arg7)) := by
  refine (H4_bias (W7 m ρ c)).trans ?_
  rw [W7_arg7]
theorem W8_v58 : W8 m ρ c (Proc.devRef .tc main_v58) = layer2 m c := (H4_v58 (W7 m ρ c)).trans (W7_v58 m ρ c)
theorem W8_arg6 : W8 m ρ c (Proc.devRef .tc main_arg6) = (m ((c : Thread nD τ).loc main_arg6)) := (H4_arg6 (W7 m ρ c)).trans (W7_arg6 m ρ c)

/-! ### Boundary 9: after the head -/
theorem W9_v60 : W9 m ρ c (Proc.devRef .tc main_v60) = headOut m c := by
  refine (W9_arr m ρ c 3).trans ((head4_final (V8 m ρ) c).trans ?_)
  show Cert.GCN.headRow (F := Ideal) (W8 m ρ c (Proc.devRef .tc main_v58)) (W8 m ρ c (Proc.devRef .tc main_arg6)) (W8 m ρ c (Proc.devRef .tc main_v59)) = _
  rw [W8_v58, W8_arg6, W8_v59]; rfl
theorem W9_v58 : W9 m ρ c (Proc.devRef .tc main_v58) = layer2 m c :=
  (W9_arr m ρ c 0).trans ((((dat4 (V8 m ρ) c).arrAt_in 0 rfl _).trans (A_eq4 (V8 m ρ) c 0)).trans (W8_v58 m ρ c))

/-! ## The two results as the specification's functions of the arguments -/

theorem layer1_eq : layer1 m c = Cert.GCN.layerWith (F := Ideal) (eSrc m c) (eDst m c) (eNorm m c) (m ((c : Thread nD τ).loc main_arg0)) (m ((c : Thread nD τ).loc main_arg2)) (m ((c : Thread nD τ).loc main_arg3)) := by
  unfold layer1 Cert.GCN.layerWith Cert.GCN.biasRelu
  rw [row64_eq]
theorem layer2_eq : layer2 m c = Cert.GCN.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold layer2 Cert.GCN.hidden
  rw [layer1_eq]
  unfold Cert.GCN.layerWith Cert.GCN.biasRelu
  rw [row64_eq]
theorem headOut_eq : headOut m c = Cert.GCN.logp (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold headOut Cert.GCN.logp Cert.GCN.head
  rw [layer2_eq, row16_eq]

end Cert.KernelIdeal.KVal

end
-- ==== Proof.RefRun.lean ====
/-
  The reference program's run, read in four stages.

  The reference is a straight line of 98 host operations. Read in one piece, the term of its first result repeats the
  hidden features' term at each of its uses; read stage by stage over an arbitrary entry state it stays small:

    A  (33 operations)  the edge rows' sources, destinations and weights from the edge list;
    B  (23 operations)  the first layer  relu (agg (x W1) + b1)  from A's three vectors and the arguments;
    C  (23 operations)  the second layer, the same operations over B's result;
    D  (19 operations)  the classifier head  log_softmax (h W3 + b3)  over C's result.

  Each stage's results are the specification's functions (module Spec) of what the stage finds in the buffers it
  reads, and a buffer the stage does not write keeps its contents. The fold of the whole line is the fold of D after
  C after B after A, so the run ends with the two results at `logp` and `hidden` of the launch contents of the
  arguments, which no operation writes.
-/
import proofs.«107051_j3899830305164_1_alg».proof.Proof.Gen.ReferenceIdeal
import proofs.«107051_j3899830305164_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert

variable {F : FTy → Type} [FloatOps F]

/-- The fold of a line of operations cut in two is the fold of the second part after the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Contents carried to a buffer's own type and back are the contents. -/
theorem ofBuf_toBuf {sig : RefSig} {Val : EltTy → Type} {T : BufTy} (x : TRef sig T) (v : T.Contents Val) :
    x.ofBuf (x.toBuf v) = v := by
  obtain ⟨r, h, a, b⟩ := x
  subst h
  rfl

/-- Stage A: the edge rows (sources, destinations, degrees, weights). -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S1700000 ![] bcast_S_S1700000 : (⟨S_, .i32⟩ : BufTy).Contents (Elt F) → (⟨S1700000, .i32⟩ : BufTy).Contents (Elt F)),
    binary main_v3 main_v12 main_v13 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v14 (broadcastInDim S1700000 ![] bcast_S_S1700000 : (⟨S_, .i32⟩ : BufTy).Contents (Elt F) → (⟨S1700000, .i32⟩ : BufTy).Contents (Elt F)),
    binary main_v3 main_v14 main_v15 (addi : (⟨S1700000, .i32⟩ : BufTy).Contents (Elt F) → (⟨S1700000, .i32⟩ : BufTy).Contents (Elt F) → (⟨S1700000, .i32⟩ : BufTy).Contents (Elt F)),
    ternary main_v13 main_v15 main_v3 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v16 main_v17 (broadcastInDim S1700000x1 ![0] bcast_S1700000_S1700000x1_0 : (⟨S1700000, .i32⟩ : BufTy).Contents (Elt F) → (⟨S1700000x1, .i32⟩ : BufTy).Contents (Elt F)),
    binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v19 (broadcastInDim S1700000 ![] bcast_S_S1700000 : (⟨S_, .i32⟩ : BufTy).Contents (Elt F) → (⟨S1700000, .i32⟩ : BufTy).Contents (Elt F)),
    binary main_v6 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v18 main_v25 main_v26 (mulf : (⟨S1700000, .f32⟩ : BufTy).Contents (Elt F) → (⟨S1700000, .f32⟩ : BufTy).Contents (Elt F) → (⟨S1700000, .f32⟩ : BufTy).Contents (Elt F)) ]

/-- Stage B: the first layer. -/
abbrev opsB : List (HloOp τ sig (Elt F)) :=
  [ binary main_arg0 main_arg2 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v3 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v27 main_v33 main_v34 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v26 main_v35 (broadcastInDim S1700000x1 ![0] bcast_S1700000_S1700000x1_0 : (⟨S1700000, .f32⟩ : BufTy).Contents (Elt F) → (⟨S1700000x1, .f32⟩ : BufTy).Contents (Elt F)),
    unary main_v35 main_v36 (broadcastInDim S1700000x64 ![0, 1] bcast_S1700000x1_S1700000x64_0_1 : (⟨S1700000x1, .f32⟩ : BufTy).Contents (Elt F) → (⟨S1700000x64, .f32⟩ : BufTy).Contents (Elt F)),
    binary main_v34 main_v36 main_v37 (mulf : (⟨S1700000x64, .f32⟩ : BufTy).Contents (Elt F) → (⟨S1700000x64, .f32⟩ : BufTy).Contents (Elt F) → (⟨S1700000x64, .f32⟩ : BufTy).Contents (Elt F)),
    nullary main_cst_6 (constant S_ .f32 0x00000000#32),
    unary main_cst_6 main_v38 (broadcastInDim S100000x64 ![] bcast_S_S100000x64 : (⟨S_, .f32⟩ : BufTy).Contents (Elt F) → (⟨S100000x64, .f32⟩ : BufTy).Contents (Elt F)),
    unary main_v6 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v40 main_v42 main_v43 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v43) (TRef.of (T := ⟨S100000x64, .f32⟩) main_call0_v0) (TRef.of (T := ⟨S100000x64, .f32⟩) main_v44) maximumf ]

/-- Stage C: the second layer. -/
abbrev opsC : List (HloOp τ sig (Elt F)) :=
  [ binary main_v44 main_arg4 main_v45 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_7 (constantI S_ 32 0#32),
    unary main_c_7 main_v46 (broadcastInDim S1700000 ![] bcast_S_S1700000 : (⟨S_, .i32⟩ : BufTy).Contents (Elt F) → (⟨S1700000, .i32⟩ : BufTy).Contents (Elt F)),
    binary main_v3 main_v46 main_v47 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v48 (broadcastInDim S1700000 ![] bcast_S_S1700000 : (⟨S_, .i32⟩ : BufTy).Contents (Elt F) → (⟨S1700000, .i32⟩ : BufTy).Contents (Elt F)),
    binary main_v3 main_v48 main_v49 (addi : (⟨S1700000, .i32⟩ : BufTy).Contents (Elt F) → (⟨S1700000, .i32⟩ : BufTy).Contents (Elt F) → (⟨S1700000, .i32⟩ : BufTy).Contents (Elt F)),
    ternary main_v47 main_v49 main_v3 main_v50 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v50 main_v51 (broadcastInDim S1700000x1 ![0] bcast_S1700000_S1700000x1_0 : (⟨S1700000, .i32⟩ : BufTy).Contents (Elt F) → (⟨S1700000x1, .i32⟩ : BufTy).Contents (Elt F)),
    binary main_v45 main_v51 main_v52 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v26 main_v53 (broadcastInDim S1700000x1 ![0] bcast_S1700000_S1700000x1_0 : (⟨S1700000, .f32⟩ : BufTy).Contents (Elt F) → (⟨S1700000x1, .f32⟩ : BufTy).Contents (Elt F)),
    unary main_v53 main_v54 (broadcastInDim S1700000x64 ![0, 1] bcast_S1700000x1_S1700000x64_0_1 : (⟨S1700000x1, .f32⟩ : BufTy).Contents (Elt F) → (⟨S1700000x64, .f32⟩ : BufTy).Contents (Elt F)),
    binary main_v52 main_v54 main_v55 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v56 (broadcastInDim S100000x64 ![] bcast_S_S100000x64 : (⟨S_, .f32⟩ : BufTy).Contents (Elt F) → (⟨S100000x64, .f32⟩ : BufTy).Contents (Elt F)),
    unary main_v6 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v59 (broadcastInDim S1x64 ![1] bcast_S64_S1x64_1 : (⟨S64, .f32⟩ : BufTy).Contents (Elt F) → (⟨S1x64, .f32⟩ : BufTy).Contents (Elt F)),
    unary main_v59 main_v60 (broadcastInDim S100000x64 ![0, 1] bcast_S1x64_S100000x64_0_1 : (⟨S1x64, .f32⟩ : BufTy).Contents (Elt F) → (⟨S100000x64, .f32⟩ : BufTy).Contents (Elt F)),
    binary main_v58 main_v60 main_v61 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v61) (TRef.of (T := ⟨S100000x64, .f32⟩) main_call1_v0) (TRef.of (T := ⟨S100000x64, .f32⟩) main_v62) maximumf ]

/-- Stage D: the classifier head. -/
abbrev opsD : List (HloOp τ sig (Elt F)) :=
  [ binary main_v62 main_arg6 main_v63 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg7 main_v64 (broadcastInDim S1x16 ![1] bcast_S16_S1x16_1 : (⟨S16, .f32⟩ : BufTy).Contents (Elt F) → (⟨S1x16, .f32⟩ : BufTy).Contents (Elt F)),
    unary main_v64 main_v65 (broadcastInDim S100000x16 ![0, 1] bcast_S1x16_S100000x16_0_1 : (⟨S1x16, .f32⟩ : BufTy).Contents (Elt F) → (⟨S100000x16, .f32⟩ : BufTy).Contents (Elt F)),
    binary main_v63 main_v65 main_v66 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call2_cst) (constant S_ .f32 0xFF800000#32),
    TRef.binary (TRef.of (T := ⟨S100000x16, .f32⟩) main_v66) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v66) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v67) subf ]

/-- The reference's 98 operations, in order: the four stages one after the other. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S1700000 ![] bcast_S_S1700000 : (⟨S_, .i32⟩ : BufTy).Contents (Elt F) → (⟨S1700000, .i32⟩ : BufTy).Contents (Elt F)),
    binary main_v3 main_v12 main_v13 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v14 (broadcastInDim S1700000 ![] bcast_S_S1700000 : (⟨S_, .i32⟩ : BufTy).Contents (Elt F) → (⟨S1700000, .i32⟩ : BufTy).Contents (Elt F)),
    binary main_v3 main_v14 main_v15 (addi : (⟨S1700000, .i32⟩ : BufTy).Contents (Elt F) → (⟨S1700000, .i32⟩ : BufTy).Contents (Elt F) → (⟨S1700000, .i32⟩ : BufTy).Contents (Elt F)),
    ternary main_v13 main_v15 main_v3 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v16 main_v17 (broadcastInDim S1700000x1 ![0] bcast_S1700000_S1700000x1_0 : (⟨S1700000, .i32⟩ : BufTy).Contents (Elt F) → (⟨S1700000x1, .i32⟩ : BufTy).Contents (Elt F)),
    binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v19 (broadcastInDim S1700000 ![] bcast_S_S1700000 : (⟨S_, .i32⟩ : BufTy).Contents (Elt F) → (⟨S1700000, .i32⟩ : BufTy).Contents (Elt F)),
    binary main_v6 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v18 main_v25 main_v26 (mulf : (⟨S1700000, .f32⟩ : BufTy).Contents (Elt F) → (⟨S1700000, .f32⟩ : BufTy).Contents (Elt F) → (⟨S1700000, .f32⟩ : BufTy).Contents (Elt F)),
    binary main_arg0 main_arg2 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v3 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v27 main_v33 main_v34 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v26 main_v35 (broadcastInDim S1700000x1 ![0] bcast_S1700000_S1700000x1_0 : (⟨S1700000, .f32⟩ : BufTy).Contents (Elt F) → (⟨S1700000x1, .f32⟩ : BufTy).Contents (Elt F)),
    unary main_v35 main_v36 (broadcastInDim S1700000x64 ![0, 1] bcast_S1700000x1_S1700000x64_0_1 : (⟨S1700000x1, .f32⟩ : BufTy).Contents (Elt F) → (⟨S1700000x64, .f32⟩ : BufTy).Contents (Elt F)),
    binary main_v34 main_v36 main_v37 (mulf : (⟨S1700000x64, .f32⟩ : BufTy).Contents (Elt F) → (⟨S1700000x64, .f32⟩ : BufTy).Contents (Elt F) → (⟨S1700000x64, .f32⟩ : BufTy).Contents (Elt F)),
    nullary main_cst_6 (constant S_ .f32 0x00000000#32),
    unary main_cst_6 main_v38 (broadcastInDim S100000x64 ![] bcast_S_S100000x64 : (⟨S_, .f32⟩ : BufTy).Contents (Elt F) → (⟨S100000x64, .f32⟩ : BufTy).Contents (Elt F)),
    unary main_v6 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v40 main_v42 main_v43 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v43) (TRef.of (T := ⟨S100000x64, .f32⟩) main_call0_v0) (TRef.of (T := ⟨S100000x64, .f32⟩) main_v44) maximumf,
    binary main_v44 main_arg4 main_v45 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_7 (constantI S_ 32 0#32),
    unary main_c_7 main_v46 (broadcastInDim S1700000 ![] bcast_S_S1700000 : (⟨S_, .i32⟩ : BufTy).Contents (Elt F) → (⟨S1700000, .i32⟩ : BufTy).Contents (Elt F)),
    binary main_v3 main_v46 main_v47 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v48 (broadcastInDim S1700000 ![] bcast_S_S1700000 : (⟨S_, .i32⟩ : BufTy).Contents (Elt F) → (⟨S1700000, .i32⟩ : BufTy).Contents (Elt F)),
    binary main_v3 main_v48 main_v49 (addi : (⟨S1700000, .i32⟩ : BufTy).Contents (Elt F) → (⟨S1700000, .i32⟩ : BufTy).Contents (Elt F) → (⟨S1700000, .i32⟩ : BufTy).Contents (Elt F)),
    ternary main_v47 main_v49 main_v3 main_v50 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v50 main_v51 (broadcastInDim S1700000x1 ![0] bcast_S1700000_S1700000x1_0 : (⟨S1700000, .i32⟩ : BufTy).Contents (Elt F) → (⟨S1700000x1, .i32⟩ : BufTy).Contents (Elt F)),
    binary main_v45 main_v51 main_v52 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v26 main_v53 (broadcastInDim S1700000x1 ![0] bcast_S1700000_S1700000x1_0 : (⟨S1700000, .f32⟩ : BufTy).Contents (Elt F) → (⟨S1700000x1, .f32⟩ : BufTy).Contents (Elt F)),
    unary main_v53 main_v54 (broadcastInDim S1700000x64 ![0, 1] bcast_S1700000x1_S1700000x64_0_1 : (⟨S1700000x1, .f32⟩ : BufTy).Contents (Elt F) → (⟨S1700000x64, .f32⟩ : BufTy).Contents (Elt F)),
    binary main_v52 main_v54 main_v55 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v56 (broadcastInDim S100000x64 ![] bcast_S_S100000x64 : (⟨S_, .f32⟩ : BufTy).Contents (Elt F) → (⟨S100000x64, .f32⟩ : BufTy).Contents (Elt F)),
    unary main_v6 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v59 (broadcastInDim S1x64 ![1] bcast_S64_S1x64_1 : (⟨S64, .f32⟩ : BufTy).Contents (Elt F) → (⟨S1x64, .f32⟩ : BufTy).Contents (Elt F)),
    unary main_v59 main_v60 (broadcastInDim S100000x64 ![0, 1] bcast_S1x64_S100000x64_0_1 : (⟨S1x64, .f32⟩ : BufTy).Contents (Elt F) → (⟨S100000x64, .f32⟩ : BufTy).Contents (Elt F)),
    binary main_v58 main_v60 main_v61 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v61) (TRef.of (T := ⟨S100000x64, .f32⟩) main_call1_v0) (TRef.of (T := ⟨S100000x64, .f32⟩) main_v62) maximumf,
    binary main_v62 main_arg6 main_v63 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg7 main_v64 (broadcastInDim S1x16 ![1] bcast_S16_S1x16_1 : (⟨S16, .f32⟩ : BufTy).Contents (Elt F) → (⟨S1x16, .f32⟩ : BufTy).Contents (Elt F)),
    unary main_v64 main_v65 (broadcastInDim S100000x16 ![0, 1] bcast_S1x16_S100000x16_0_1 : (⟨S1x16, .f32⟩ : BufTy).Contents (Elt F) → (⟨S100000x16, .f32⟩ : BufTy).Contents (Elt F)),
    binary main_v63 main_v65 main_v66 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call2_cst) (constant S_ .f32 0xFF800000#32),
    TRef.binary (TRef.of (T := ⟨S100000x16, .f32⟩) main_v66) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v66) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v67) subf ]

/-- The line is the four stages one after the other. -/
theorem ops_split : (ops (F := F)) = opsA ++ (opsB ++ (opsC ++ opsD)) := rfl

set_option maxHeartbeats 8000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem opsB_sub : (opsB : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
set_option maxRecDepth 8192 in
theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
set_option maxRecDepth 8192 in
theorem opsD_sub : (opsD : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig := by
  rw [List.forall_iff_forall_mem]
  intro op h
  rw [ops_split] at h
  simp only [List.mem_append] at h
  rcases h with h | h | h | h
  · exact List.forall_iff_forall_mem.mp opsA_sub op h
  · exact List.forall_iff_forall_mem.mp opsB_sub op h
  · exact List.forall_iff_forall_mem.mp opsC_sub op h
  · exact List.forall_iff_forall_mem.mp opsD_sub op h

variable (W : Valuation τ sig (Elt F))

/-! ## Stage A -/

theorem A_src : after opsA W (Proc.devRef .tc main_v3) = GCN.src (F := F) (W (Proc.devRef .tc main_arg1)) := by
  simp only [opsA]; after_results_simp <;> rfl
theorem A_dst : after opsA W (Proc.devRef .tc main_v6) = GCN.dst (F := F) (W (Proc.devRef .tc main_arg1)) := by
  simp only [opsA]; after_results_simp <;> rfl
theorem A_norm : after opsA W (Proc.devRef .tc main_v26) = GCN.norm (F := F) (W (Proc.devRef .tc main_arg1)) := by
  simp only [opsA]; after_results_simp <;> rfl
theorem A_arg0 : after opsA W (Proc.devRef .tc main_arg0) = W (Proc.devRef .tc main_arg0) := by
  simp only [opsA]; after_results_simp <;> rfl
theorem A_arg2 : after opsA W (Proc.devRef .tc main_arg2) = W (Proc.devRef .tc main_arg2) := by
  simp only [opsA]; after_results_simp <;> rfl
theorem A_arg3 : after opsA W (Proc.devRef .tc main_arg3) = W (Proc.devRef .tc main_arg3) := by
  simp only [opsA]; after_results_simp <;> rfl
theorem A_arg4 : after opsA W (Proc.devRef .tc main_arg4) = W (Proc.devRef .tc main_arg4) := by
  simp only [opsA]; after_results_simp <;> rfl
theorem A_arg5 : after opsA W (Proc.devRef .tc main_arg5) = W (Proc.devRef .tc main_arg5) := by
  simp only [opsA]; after_results_simp <;> rfl
theorem A_arg6 : after opsA W (Proc.devRef .tc main_arg6) = W (Proc.devRef .tc main_arg6) := by
  simp only [opsA]; after_results_simp <;> rfl
theorem A_arg7 : after opsA W (Proc.devRef .tc main_arg7) = W (Proc.devRef .tc main_arg7) := by
  simp only [opsA]; after_results_simp <;> rfl

/-! ## Stage B -/

theorem B_layer : after opsB W (Proc.devRef .tc main_v44)
    = GCN.layerWith (F := F) (W (Proc.devRef .tc main_v3)) (W (Proc.devRef .tc main_v6)) (W (Proc.devRef .tc main_v26)) (W (Proc.devRef .tc main_arg0)) (W (Proc.devRef .tc main_arg2)) (W (Proc.devRef .tc main_arg3)) := by
  simp only [opsB]; after_results_simp <;> rfl
theorem B_v3 : after opsB W (Proc.devRef .tc main_v3) = W (Proc.devRef .tc main_v3) := by
  simp only [opsB]; after_results_simp <;> rfl
theorem B_v6 : after opsB W (Proc.devRef .tc main_v6) = W (Proc.devRef .tc main_v6) := by
  simp only [opsB]; after_results_simp <;> rfl
theorem B_v26 : after opsB W (Proc.devRef .tc main_v26) = W (Proc.devRef .tc main_v26) := by
  simp only [opsB]; after_results_simp <;> rfl
theorem B_arg4 : after opsB W (Proc.devRef .tc main_arg4) = W (Proc.devRef .tc main_arg4) := by
  simp only [opsB]; after_results_simp <;> rfl
theorem B_arg5 : after opsB W (Proc.devRef .tc main_arg5) = W (Proc.devRef .tc main_arg5) := by
  simp only [opsB]; after_results_simp <;> rfl
theorem B_arg6 : after opsB W (Proc.devRef .tc main_arg6) = W (Proc.devRef .tc main_arg6) := by
  simp only [opsB]; after_results_simp <;> rfl
theorem B_arg7 : after opsB W (Proc.devRef .tc main_arg7) = W (Proc.devRef .tc main_arg7) := by
  simp only [opsB]; after_results_simp <;> rfl

/-! ## Stage C -/

theorem C_layer : after opsC W (Proc.devRef .tc main_v62)
    = GCN.layerWith (F := F) (W (Proc.devRef .tc main_v3)) (W (Proc.devRef .tc main_v6)) (W (Proc.devRef .tc main_v26)) (W (Proc.devRef .tc main_v44)) (W (Proc.devRef .tc main_arg4)) (W (Proc.devRef .tc main_arg5)) := by
  simp only [opsC]; after_results_simp <;> rfl
theorem C_arg6 : after opsC W (Proc.devRef .tc main_arg6) = W (Proc.devRef .tc main_arg6) := by
  simp only [opsC]; after_results_simp <;> rfl
theorem C_arg7 : after opsC W (Proc.devRef .tc main_arg7) = W (Proc.devRef .tc main_arg7) := by
  simp only [opsC]; after_results_simp <;> rfl

/-! ## Stage D -/

theorem D_head : after opsD W (Proc.devRef .tc main_v67)
    = GCN.head (F := F) (W (Proc.devRef .tc main_v62)) (W (Proc.devRef .tc main_arg6)) (W (Proc.devRef .tc main_arg7)) := by
  simp only [opsD]; after_results_simp
  simp only [ofBuf_toBuf]
  rfl
theorem D_v62 : after opsD W (Proc.devRef .tc main_v62) = W (Proc.devRef .tc main_v62) := by
  simp only [opsD]; after_results_simp <;> rfl

/-! ## The whole line -/

/-- The hidden features' buffer after the whole line. -/
theorem hidden_eq : after (ops (F := F)) W (Proc.devRef .tc main_v62)
    = GCN.hidden (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  unfold GCN.hidden
  rw [ops_split, after_append, after_append, after_append,
    D_v62, C_layer, B_layer, B_v3, B_v6, B_v26, B_arg4, B_arg5, A_src, A_dst, A_norm, A_arg0, A_arg2, A_arg3, A_arg4, A_arg5]

/-- The class log-probabilities' buffer after the whole line. -/
theorem logp_eq : after (ops (F := F)) W (Proc.devRef .tc main_v67)
    = GCN.logp (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold GCN.logp GCN.hidden
  rw [ops_split, after_append, after_append, after_append,
    D_head, C_layer, C_arg6, C_arg7, B_layer, B_v3, B_v6, B_v26, B_arg4, B_arg5, B_arg6, B_arg7,
    A_src, A_dst, A_norm, A_arg0, A_arg2, A_arg3, A_arg4, A_arg5, A_arg6, A_arg7]

/-! ## The arguments -/

theorem kept_arg0 : after (ops (F := F)) W (Proc.devRef .tc main_arg0) = W (Proc.devRef .tc main_arg0) := by
  simp only [ops]; after_results_simp <;> rfl
theorem kept_arg1 : after (ops (F := F)) W (Proc.devRef .tc main_arg1) = W (Proc.devRef .tc main_arg1) := by
  simp only [ops]; after_results_simp <;> rfl
theorem kept_arg2 : after (ops (F := F)) W (Proc.devRef .tc main_arg2) = W (Proc.devRef .tc main_arg2) := by
  simp only [ops]; after_results_simp <;> rfl
theorem kept_arg3 : after (ops (F := F)) W (Proc.devRef .tc main_arg3) = W (Proc.devRef .tc main_arg3) := by
  simp only [ops]; after_results_simp <;> rfl
theorem kept_arg4 : after (ops (F := F)) W (Proc.devRef .tc main_arg4) = W (Proc.devRef .tc main_arg4) := by
  simp only [ops]; after_results_simp <;> rfl
theorem kept_arg5 : after (ops (F := F)) W (Proc.devRef .tc main_arg5) = W (Proc.devRef .tc main_arg5) := by
  simp only [ops]; after_results_simp <;> rfl
theorem kept_arg6 : after (ops (F := F)) W (Proc.devRef .tc main_arg6) = W (Proc.devRef .tc main_arg6) := by
  simp only [ops]; after_results_simp <;> rfl
theorem kept_arg7 : after (ops (F := F)) W (Proc.devRef .tc main_arg7) = W (Proc.devRef .tc main_arg7) := by
  simp only [ops]; after_results_simp <;> rfl

/-! ## The run -/

/-- Every weakly fair execution of the reference terminates, nothing faulting, with the class log-probabilities and
    the hidden features at the specification's functions of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = GCN.logp (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v62) = GCN.hidden (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v67).trans (logp_eq (launchContents m c)),
      (h c main_v62).trans (hidden_eq (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c))⟩)
    (run_seq scopedRefs_eq scopedSems_eq defs main (fun _ => ops) main_eq (fun _ => ops_sub) m ρ)

end Cert.ReferenceIdeal.RefRun

end
-- ==== Proof.lean ====
/-
  A two-layer graph convolution network on 100000 nodes and 1700000 edge rows (the edge list plus one self loop per
  node), with a 16-class log-softmax head: the kernel program and the plain-host reference compute the same two arrays
  on the extended reals.

  Both programs build the edge rows' sources, destinations and weights with the same host operations, and both
  aggregate along the edge rows with the same gather, product and scatter-add. They differ in the three dense stages,
  which the kernel program runs block by block over twenty blocks of 5000 rows:

    * x W: the block's matrix product into a zero accumulator, against the host's contraction of the whole array —
      entry (r, q) of both is the sum over k of x(r, k) · W(k, q), the rounding of the operands to a shorter format
      being the identity on the extended reals;
    * relu (a + b): the block plus the bias row, maximum with 0, against the same on the whole array, the reference
      broadcasting the bias vector into the row the kernel receives reshaped;
    * the head: row r of both is the log-softmax of the row (h W3 + b3)(r, ·), the reference taking the row's maximum
      once more against the value the fold started from, which changes nothing.

  So the kernel program's buffers at each boundary between host stretches and kernels hold the specification's
  functions (module Spec) of the launched arguments (modules RegLin, RegBias, RegHead for the three kinds of kernel, KWalk
  for the boundaries one after the other), the reference's line of host operations ends at the same functions (module
  RefRun), and the two runs' results are equal. No law used needs the inputs finite: sums and products are only ever
  regrouped by block, never distributed or cancelled, so the precondition is not opened.
-/
import proofs.«107051_j3899830305164_1_alg».proof.Defs
import proofs.«107051_j3899830305164_1_alg».proof.Proof.Gen.Kernel
import proofs.«107051_j3899830305164_1_alg».proof.Proof.Gen.Kernel.Skeleton
import proofs.«107051_j3899830305164_1_alg».proof.Proof.Gen.Kernel.Launch
import proofs.«107051_j3899830305164_1_alg».proof.Proof.Gen.Kernel.Points
import proofs.«107051_j3899830305164_1_alg».proof.Proof.Gen.Kernel.Frame
import proofs.«107051_j3899830305164_1_alg».proof.Proof.Gen.KernelIdeal
import proofs.«107051_j3899830305164_1_alg».proof.Proof.Gen.KernelIdeal.Skeleton
import proofs.«107051_j3899830305164_1_alg».proof.Proof.Gen.KernelIdeal.Launch
import proofs.«107051_j3899830305164_1_alg».proof.Proof.Gen.KernelIdeal.Points
import proofs.«107051_j3899830305164_1_alg».proof.Proof.Gen.KernelIdeal.Frame
import proofs.«107051_j3899830305164_1_alg».proof.Proof.Gen.ReferenceIdeal
import proofs.«107051_j3899830305164_1_alg».proof.Proof.Gen.Pre_finite_inputs
import proofs.«107051_j3899830305164_1_alg».proof.Proof.KRun
import proofs.«107051_j3899830305164_1_alg».proof.Proof.KWalk
import proofs.«107051_j3899830305164_1_alg».proof.Proof.RefRun
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run, the results dropped. -/
theorem frame_reference : Cert.frame_ReferenceIdeal := fun m ρ _ =>
  (θ_run Cert.ReferenceIdeal.defs _ _).mono (fun _ h c => (h c).2.2) (Cert.ReferenceIdeal.RefRun.run (F := Ideal) m ρ)

/-- The idealization rewrote no operation. -/
theorem preserves : Cert.preserves_Kernel_KernelIdeal := trivial

/-- From memories agreeing on the arguments both programs end with the class log-probabilities at `logp` and the
    hidden features at `hidden` of the arguments. -/
theorem algebraic : Cert.algebraic_KernelIdeal_ReferenceIdeal := by
  intro m ρ m' ρ' _ hagree
  refine ⟨fun c => Cert.GCN.logp (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.GCN.hidden (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans ((Cert.KernelIdeal.KVal.W9_v60 m ρ c).trans (Cert.KernelIdeal.KVal.headOut_eq m c)),
        (h c).2.1.trans ((Cert.KernelIdeal.KVal.W9_v58 m ρ c).trans (Cert.KernelIdeal.KVal.layer2_eq m c)), (h c).2.2⟩)
      (Cert.KernelIdeal.KVal.run_at (F := Ideal) m ρ)
  · refine (θ_run Cert.ReferenceIdeal.defs _ _).mono (fun _ h c => ⟨?_, ?_, (h c).2.2⟩)
      (Cert.ReferenceIdeal.RefRun.run (F := Ideal) m' ρ')
    · rw [(h c).1, (hagree c).1, (hagree c).2.1, (hagree c).2.2.1, (hagree c).2.2.2.1, (hagree c).2.2.2.2.1,
        (hagree c).2.2.2.2.2.1, (hagree c).2.2.2.2.2.2.1, (hagree c).2.2.2.2.2.2.2]
    · rw [(h c).2.1, (hagree c).1, (hagree c).2.1, (hagree c).2.2.1, (hagree c).2.2.2.1, (hagree c).2.2.2.2.1,
        (hagree c).2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
